-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S8x64x128 : Shape := ⟨3, ![8, 64, 128]⟩
abbrev S8x128x128 : Shape := ⟨3, ![8, 128, 128]⟩
abbrev S8x128 : Shape := ⟨2, ![8, 128]⟩
abbrev S1024x128 : Shape := ⟨2, ![1024, 128]⟩
abbrev S128 : Shape := ⟨1, ![128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S8x64x128 : S_.BroadcastsInDim S8x64x128 (![] : Fin 0 → Fin S8x64x128.rank)
  reducesTo_S8x64x128_S_d0_1_2 : S8x64x128.ReducesTo [0, 1, 2] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S8x128x128 .f32) (main_arg5 : FVec F S8x128 .f32) (main_arg6 : FVec F S1024x128 .f32) (main_arg7 : FVec F S128 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S8x128x128 .f32 := Host.absf main_arg4
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S8x128 .f32 := Host.absf main_arg5
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  let main_v29 : FVec F S1024x128 .f32 := Host.absf main_arg6
  let main_cst_10 : FVec F S_ .f32 := constant S_ .f32 0x7F800000#32
  let main_v30 : FVec F S1024x128 .f32 := broadcastInDim S1024x128 ![] bcast_S_S1024x128 main_cst_10
  let main_v31 : IVec S1024x128 1 := cmpf .olt main_v29 main_v30
  let main_c_11 : IVec S_ 1 := constantI S_ 1 1#1
  let main_v32 : IVec S_ 1 := (fun x v => Host.reduce IntOp.andi x v reducesTo_S1024x128_S_d0_1 h_S_) main_v31 main_c_11
  let main_v33 : IVec S_ 1 := andi main_v28 main_v32
  fn_part2 (F := F) main_arg7 main_v33

def fn {F : FTy → Type} [FloatOps F] (main_arg0 : FVec F S262144x128 .f32) (main_arg1 : FVec F S8x64x128 .f32) (main_arg2 : FVec F S8x128x128 .f32) (main_arg3 : FVec F S8x128 .f32) (main_arg4 : FVec F S8x128x128 .f32) (main_arg5 : FVec F S8x128 .f32) (main_arg6 : FVec F S1024x128 .f32) (main_arg7 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S8x64x128 .f32 := Host.absf main_arg1
  let main_cst_0 : FVec F S_ .f32 := constant S_ .f32 0x7F800000#32
  let main_v5 : FVec F S8x64x128 .f32 := broadcastInDim S8x64x128 ![] bcast_S_S8x64x128 main_cst_0
  let main_v6 : IVec S8x64x128 1 := cmpf .olt main_v4 main_v5
  let main_c_1 : IVec S_ 1 := constantI S_ 1 1#1
  let main_v7 : IVec S_ 1 := (fun x v => Host.reduce IntOp.andi x v reducesTo_S8x64x128_S_d0_1_2 h_S_) main_v6 main_c_1
  let main_v8 : IVec S_ 1 := andi main_v3 main_v7
  let main_v9 : FVec F S8x128x128 .f32 := Host.absf main_arg2
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  let main_v14 : FVec F S8x128 .f32 := Host.absf main_arg3
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg4 main_arg5 main_arg6 main_arg7 main_v13 main_v16
-- ==== Kernel.lean ====
abbrev S262144x128 : Shape := ⟨2, ![262144, 128]⟩
abbrev S8x64x128 : Shape := ⟨3, ![8, 64, 128]⟩
abbrev S8x128x128 : Shape := ⟨3, ![8, 128, 128]⟩
abbrev S8x128 : Shape := ⟨2, ![8, 128]⟩
abbrev S1024x128 : Shape := ⟨2, ![1024, 128]⟩
abbrev S128 : Shape := ⟨1, ![128]⟩
abbrev S8x1x128 : Shape := ⟨3, ![8, 1, 128]⟩
abbrev S512x128 : Shape := ⟨2, ![512, 128]⟩
abbrev S512 : Shape := ⟨1, ![512]⟩
abbrev S512x1 : Shape := ⟨2, ![512, 1]⟩
abbrev S_ : Shape := ⟨0, ![]⟩
abbrev S1x512 : Shape := ⟨2, ![1, 512]⟩
abbrev S512x512 : Shape := ⟨2, ![512, 512]⟩
abbrev S1x128 : Shape := ⟨2, ![1, 128]⟩
abbrev S1x64x128 : Shape := ⟨3, ![1, 64, 128]⟩
abbrev S1x128x128 : Shape := ⟨3, ![1, 128, 128]⟩
abbrev S1x1x128 : Shape := ⟨3, ![1, 1, 128]⟩
abbrev S128x128 : Shape := ⟨2, ![128, 128]⟩
abbrev S64x128 : Shape := ⟨2, ![64, 128]⟩
abbrev S64 : Shape := ⟨1, ![64]⟩
abbrev S64x1 : Shape := ⟨2, ![64, 1]⟩
abbrev S2048x128 : Shape := ⟨2, ![2048, 128]⟩
abbrev S2048x512 : Shape := ⟨2, ![2048, 512]⟩
abbrev S2048x256 : Shape := ⟨2, ![2048, 256]⟩
abbrev S256x128 : Shape := ⟨2, ![256, 128]⟩

abbrev nBuf : Space → Nat
  | .hbm => 58
  | .vmem => 24
  | .smem => 0
  | _ => 0

abbrev bufTy : (tb : Table) → Fin (tcTables nBuf tb) → BufTy
  | .hbm, ⟨0, _⟩ => ⟨S262144x128, .f32⟩
  | .hbm, ⟨1, _⟩ => ⟨S8x64x128, .f32⟩
  | .hbm, ⟨2, _⟩ => ⟨S8x128x128, .f32⟩
  | .hbm, ⟨3, _⟩ => ⟨S8x128, .f32⟩
  | .hbm, ⟨4, _⟩ => ⟨S8x128x128, .f32⟩
  | .hbm, ⟨5, _⟩ => ⟨S8x128, .f32⟩
  | .hbm, ⟨6, _⟩ => ⟨S1024x128, .f32⟩
  | .hbm, ⟨7, _⟩ => ⟨S128, .f32⟩
  | .hbm, ⟨8, _⟩ => ⟨S8x1x128, .f32⟩
  | .hbm, ⟨9, _⟩ => ⟨S8x1x128, .f32⟩
  | .hbm, ⟨10, _⟩ => ⟨S512x128, .f32⟩
  | .hbm, ⟨11, _⟩ => ⟨S512x128, .f32⟩
  | .hbm, ⟨12, _⟩ => ⟨S512, .i32⟩
  | .hbm, ⟨13, _⟩ => ⟨S512x1, .i32⟩
  | .hbm, ⟨14, _⟩ => ⟨S_, .i32⟩
  | .hbm, ⟨15, _⟩ => ⟨S_, .i32⟩
  | .hbm, ⟨16, _⟩ => ⟨S512x1, .i32⟩
  | .hbm, ⟨17, _⟩ => ⟨S512x1, .i32⟩
  | .hbm, ⟨18, _⟩ => ⟨S512x1, .i32⟩
  | .hbm, ⟨19, _⟩ => ⟨S_, .i32⟩
  | .hbm, ⟨20, _⟩ => ⟨S512x1, .i32⟩
  | .hbm, ⟨21, _⟩ => ⟨S512x1, .i1⟩
  | .hbm, ⟨22, _⟩ => ⟨S512x1, .i32⟩
  | .hbm, ⟨23, _⟩ => ⟨S512x1, .i32⟩
  | .hbm, ⟨24, _⟩ => ⟨S_, .i32⟩
  | .hbm, ⟨25, _⟩ => ⟨S512x1, .i32⟩
  | .hbm, ⟨26, _⟩ => ⟨S512x1, .i1⟩
  | .hbm, ⟨27, _⟩ => ⟨S512x1, .i1⟩
  | .hbm, ⟨28, _⟩ => ⟨S_, .i32⟩
  | .hbm, ⟨29, _⟩ => ⟨S512x1, .i32⟩
  | .hbm, ⟨30, _⟩ => ⟨S512x1, .i32⟩
  | .hbm, ⟨31, _⟩ => ⟨S512x1, .i32⟩
  | .hbm, ⟨32, _⟩ => ⟨S512, .i32⟩
  | .hbm, ⟨33, _⟩ => ⟨S1x512, .i32⟩
  | .hbm, ⟨34, _⟩ => ⟨S_, .i32⟩
  | .hbm, ⟨35, _⟩ => ⟨S_, .i32⟩
  | .hbm, ⟨36, _⟩ => ⟨S1x512, .i32⟩
  | .hbm, ⟨37, _⟩ => ⟨S1x512, .i32⟩
  | .hbm, ⟨38, _⟩ => ⟨S1x512, .i32⟩
  | .hbm, ⟨39, _⟩ => ⟨S_, .i32⟩
  | .hbm, ⟨40, _⟩ => ⟨S1x512, .i32⟩
  | .hbm, ⟨41, _⟩ => ⟨S1x512, .i1⟩
  | .hbm, ⟨42, _⟩ => ⟨S1x512, .i32⟩
  | .hbm, ⟨43, _⟩ => ⟨S1x512, .i32⟩
  | .hbm, ⟨44, _⟩ => ⟨S_, .i32⟩
  | .hbm, ⟨45, _⟩ => ⟨S1x512, .i32⟩
  | .hbm, ⟨46, _⟩ => ⟨S1x512, .i1⟩
  | .hbm, ⟨47, _⟩ => ⟨S1x512, .i1⟩
  | .hbm, ⟨48, _⟩ => ⟨S_, .i32⟩
  | .hbm, ⟨49, _⟩ => ⟨S1x512, .i32⟩
  | .hbm, ⟨50, _⟩ => ⟨S1x512, .i32⟩
  | .hbm, ⟨51, _⟩ => ⟨S1x512, .i32⟩
  | .hbm, ⟨52, _⟩ => ⟨S512x512, .i32⟩
  | .hbm, ⟨53, _⟩ => ⟨S512x512, .i32⟩
  | .hbm, ⟨54, _⟩ => ⟨S512x512, .i1⟩
  | .hbm, ⟨55, _⟩ => ⟨S512x512, .f32⟩
  | .hbm, ⟨56, _⟩ => ⟨S1x128, .f32⟩
  | .hbm, ⟨57, _⟩ => ⟨S262144x128, .f32⟩
  | .local _ .vmem, ⟨0, _⟩ => ⟨S1x64x128, .f32⟩
  | .local _ .vmem, ⟨1, _⟩ => ⟨S1x64x128, .f32⟩
  | .local _ .vmem, ⟨2, _⟩ => ⟨S1x128x128, .f32⟩
  | .local _ .vmem, ⟨3, _⟩ => ⟨S1x128x128, .f32⟩
  | .local _ .vmem, ⟨4, _⟩ => ⟨S1x1x128, .f32⟩
  | .local _ .vmem, ⟨5, _⟩ => ⟨S1x1x128, .f32⟩
  | .local _ .vmem, ⟨6, _⟩ => ⟨S1x128x128, .f32⟩
  | .local _ .vmem, ⟨7, _⟩ => ⟨S1x128x128, .f32⟩
  | .local _ .vmem, ⟨8, _⟩ => ⟨S128x128, .f32⟩
  | .local _ .vmem, ⟨9, _⟩ => ⟨S128x128, .f32⟩
  | .local _ .vmem, ⟨10, _⟩ => ⟨S1x1x128, .f32⟩
  | .local _ .vmem, ⟨11, _⟩ => ⟨S1x1x128, .f32⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | .local _ .vmem, ⟨16, _⟩ => ⟨S2048x128, .f32⟩
  | .local _ .vmem, ⟨17, _⟩ => ⟨S2048x128, .f32⟩
  | .local _ .vmem, ⟨18, _⟩ => ⟨S512x128, .f32⟩
  | .local _ .vmem, ⟨19, _⟩ => ⟨S512x128, .f32⟩
  | .local _ .vmem, ⟨20, _⟩ => ⟨S512x512, .f32⟩
  | .local _ .vmem, ⟨21, _⟩ => ⟨S1x128, .f32⟩
  | .local _ .vmem, ⟨22, _⟩ => ⟨S2048x128, .f32⟩
  | .local _ .vmem, ⟨23, _⟩ => ⟨S2048x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2_0 : Ref sig .tc := ⟨.hbm, 10, rfl⟩
abbrev main_call0_v2_1 : Ref sig .tc := ⟨.hbm, 11, rfl⟩
abbrev main_call0_v3 : Ref sig .tc := ⟨.hbm, 12, rfl⟩
abbrev main_call0_v4 : Ref sig .tc := ⟨.hbm, 13, rfl⟩
abbrev main_call0_c : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_c : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_call0_c_0 : Ref sig .tc := ⟨.hbm, 28, rfl⟩
abbrev main_call0_call0_v12 : Ref sig .tc := ⟨.hbm, 29, rfl⟩
abbrev main_call0_call0_v13 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_c_0 : Ref sig .tc := ⟨.hbm, 34, rfl⟩
abbrev main_call0_call1_v0 : Ref sig .tc := ⟨.hbm, 35, rfl⟩
abbrev main_call0_call1_v1 : Ref sig .tc := ⟨.hbm, 36, rfl⟩
abbrev main_call0_call1_v2 : Ref sig .tc := ⟨.hbm, 37, rfl⟩
abbrev main_call0_call1_v3 : Ref sig .tc := ⟨.hbm, 38, rfl⟩
abbrev main_call0_call1_v4 : Ref sig .tc := ⟨.hbm, 39, rfl⟩
abbrev main_call0_call1_v5 : Ref sig .tc := ⟨.hbm, 40, rfl⟩
abbrev main_call0_call1_v6 : Ref sig .tc := ⟨.hbm, 41, rfl⟩
abbrev main_call0_call1_v7 : Ref sig .tc := ⟨.hbm, 42, rfl⟩
abbrev main_call0_call1_v8 : Ref sig .tc := ⟨.hbm, 43, rfl⟩
abbrev main_call0_call1_c : Ref sig .tc := ⟨.hbm, 44, rfl⟩
abbrev main_call0_call1_v9 : Ref sig .tc := ⟨.hbm, 45, rfl⟩
abbrev main_call0_call1_v10 : Ref sig .tc := ⟨.hbm, 46, rfl⟩
abbrev main_call0_call1_v11 : Ref sig .tc := ⟨.hbm, 47, rfl⟩
abbrev main_call0_call1_c_0 : Ref sig .tc := ⟨.hbm, 48, rfl⟩
abbrev main_call0_call1_v12 : Ref sig .tc := ⟨.hbm, 49, rfl⟩
abbrev main_call0_call1_v13 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_v13 : Ref sig .tc := ⟨.hbm, 56, rfl⟩
abbrev main_v0 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S8x128_S8x1x128 : S8x128.ShapeCasts S8x1x128
  bcast_S512_S512x1_0 : S512.BroadcastsInDim S512x1 (![0] : Fin 1 → Fin S512x1.rank)
  bcast_S_S512x1 : S_.BroadcastsInDim S512x1 (![] : Fin 0 → Fin S512x1.rank)
  bcast_S512_S1x512_1 : S512.BroadcastsInDim S1x512 (![1] : Fin 1 → Fin S1x512.rank)
  bcast_S_S1x512 : S_.BroadcastsInDim S1x512 (![] : Fin 0 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  shapeCasts_S128_S1x128 : S128.ShapeCasts S1x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S64x128 : S1x128.Broadcasts S64x128
  reduces_S64x128_S64 : S64x128.Reduces [1] S64
  shapeCasts_S64_S64x1 : S64.ShapeCasts S64x1
  broadcasts_S64x1_S64x128 : S64x1.Broadcasts S64x128
  inb_S64x128_S64x128_0_0 : ∀ a, (![0, 0] : Fin 2 → Nat) a + S64x128.size a ≤ S64x128.size a
  h_S64x128 : 0 < S64x128.numel
  inb_S128x128_S128x128_0_0 : ∀ a, (![0, 0] : Fin 2 → Nat) a + S128x128.size a ≤ S128x128.size a
  h_S128x128 : 0 < S128x128.numel
  inb_S2048x128_S2048x128_0_0 : ∀ a, (![0, 0] : Fin 2 → Nat) a + S2048x128.size a ≤ S2048x128.size a
  h_S2048x128 : 0 < S2048x128.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S2048x512_o0_0_S2048x256 : S2048x512.Slices ![0, 0] S2048x256
  inb_S512x128_S256x128_0_0 : ∀ a, (![0, 0] : Fin 2 → Nat) a + S256x128.size a ≤ S512x128.size a
  h_S256x128 : 0 < S256x128.numel
  shapeCasts_S256x128_S256x128 : S256x128.ShapeCasts S256x128
  slices_S2048x512_o0_256_S2048x256 : S2048x512.Slices ![0, 256] S2048x256
  inb_S512x128_S256x128_256_0 : ∀ a, (![256, 0] : Fin 2 → Nat) a + S256x128.size a ≤ S512x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  dot_S64x128_S128x128_S64x128_1_0_0_1_n_n_wf : DotDims.WF S64x128 S128x128 S64x128 [1] [0] [0] [1] [] []
  dot_S2048x128_S512x128_S2048x512_1_1_0_0_n_n_wf : DotDims.WF S2048x128 S512x128 S2048x512 [1] [1] [0] [0] [] []
  dot_S2048x512_S512x512_S2048x512_1_0_0_1_n_n_wf : DotDims.WF S2048x512 S512x512 S2048x512 [1] [0] [0] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S8x64x128.size a
  hwx0_0 : ∀ i : grid0.Coords, EltTy.bits .f32 = 32 ∨ (Rect.block (s := S8x64x128) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S8x128x128.size a
  hwx0_1 : ∀ i : grid0.Coords, EltTy.bits .f32 = 32 ∨ (Rect.block (s := S8x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S8x128x128.size a
  hwx0_3 : ∀ i : grid0.Coords, EltTy.bits .f32 = 32 ∨ (Rect.block (s := S8x128x128) S1x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S1024x128.size a
  hwx0_4 : ∀ i : grid0.Coords, EltTy.bits .f32 = 32 ∨ (Rect.block (s := S1024x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S8x1x128.size a
  hwx0_5 : ∀ i : grid0.Coords, EltTy.bits .f32 = 32 ∨ (Rect.block (s := S8x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S512x128.size a
  hwx0_6 : ∀ i : grid0.Coords, EltTy.bits .f32 = 32 ∨ (Rect.block (s := S512x128) S64x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S512x128.size a
  hwx0_7 : ∀ i : grid0.Coords, EltTy.bits .f32 = 32 ∨ (Rect.block (s := S512x128) S64x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S262144x128.size a
  hwx1_0 : ∀ i : grid1.Coords, EltTy.bits .f32 = 32 ∨ (Rect.block (s := S262144x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S512x128.size a
  hwx1_2 : ∀ i : grid1.Coords, EltTy.bits .f32 = 32 ∨ (Rect.block (s := S512x128) S512x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S262144x128.size a
  hwx1_5 : ∀ i : grid1.Coords, EltTy.bits .f32 = 32 ∨ (Rect.block (s := S262144x128) S2048x128.size (cc1_transform_5 i) (hinb1_5 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg1) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2_0) S64x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v2_1) S64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2_0) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2_1) S512x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v12) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0) S2048x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S262144x128 : Shape := ⟨2, ![262144, 128]⟩
abbrev S8x64x128 : Shape := ⟨3, ![8, 64, 128]⟩
abbrev S8x128x128 : Shape := ⟨3, ![8, 128, 128]⟩
abbrev S8x128 : Shape := ⟨2, ![8, 128]⟩
abbrev S1024x128 : Shape := ⟨2, ![1024, 128]⟩
abbrev S128 : Shape := ⟨1, ![128]⟩
abbrev S8x1x128 : Shape := ⟨3, ![8, 1, 128]⟩
abbrev S_ : Shape := ⟨0, ![]⟩
abbrev S8x64 : Shape := ⟨2, ![8, 64]⟩
abbrev S8x64x1 : Shape := ⟨3, ![8, 64, 1]⟩
abbrev S8x64x262144 : Shape := ⟨3, ![8, 64, 262144]⟩
abbrev S8x262144x64 : Shape := ⟨3, ![8, 262144, 64]⟩
abbrev S8x262144 : Shape := ⟨2, ![8, 262144]⟩
abbrev S8x262144x1 : Shape := ⟨3, ![8, 262144, 1]⟩
abbrev S8x262144x128 : Shape := ⟨3, ![8, 262144, 128]⟩
abbrev S262144x8x128 : Shape := ⟨3, ![262144, 8, 128]⟩
abbrev S262144x1024 : Shape := ⟨2, ![262144, 1024]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S8x64x128, .f32⟩
  | .hbm, ⟨2, _⟩ => ⟨S8x128x128, .f32⟩
  | .hbm, ⟨3, _⟩ => ⟨S8x128, .f32⟩
  | .hbm, ⟨4, _⟩ => ⟨S8x128x128, .f32⟩
  | .hbm, ⟨5, _⟩ => ⟨S8x128, .f32⟩
  | .hbm, ⟨6, _⟩ => ⟨S1024x128, .f32⟩
  | .hbm, ⟨7, _⟩ => ⟨S128, .f32⟩
  | .hbm, ⟨8, _⟩ => ⟨S8x64x128, .f32⟩
  | .hbm, ⟨9, _⟩ => ⟨S8x1x128, .f32⟩
  | .hbm, ⟨10, _⟩ => ⟨S8x64x128, .f32⟩
  | .hbm, ⟨11, _⟩ => ⟨S8x64x128, .f32⟩
  | .hbm, ⟨12, _⟩ => ⟨S_, .f32⟩
  | .hbm, ⟨13, _⟩ => ⟨S8x64, .f32⟩
  | .hbm, ⟨14, _⟩ => ⟨S_, .f32⟩
  | .hbm, ⟨15, _⟩ => ⟨S8x64, .f32⟩
  | .hbm, ⟨16, _⟩ => ⟨S8x64, .f32⟩
  | .hbm, ⟨17, _⟩ => ⟨S8x64x1, .f32⟩
  | .hbm, ⟨18, _⟩ => ⟨S8x64x128, .f32⟩
  | .hbm, ⟨19, _⟩ => ⟨S8x64x128, .f32⟩
  | .hbm, ⟨20, _⟩ => ⟨S8x64x128, .f32⟩
  | .hbm, ⟨21, _⟩ => ⟨S_, .f32⟩
  | .hbm, ⟨22, _⟩ => ⟨S8x64, .f32⟩
  | .hbm, ⟨23, _⟩ => ⟨S8x64x1, .f32⟩
  | .hbm, ⟨24, _⟩ => ⟨S8x64x128, .f32⟩
  | .hbm, ⟨25, _⟩ => ⟨S8x64x128, .f32⟩
  | .hbm, ⟨26, _⟩ => ⟨S8x64x128, .f32⟩
  | .hbm, ⟨27, _⟩ => ⟨S8x1x128, .f32⟩
  | .hbm, ⟨28, _⟩ => ⟨S8x64x128, .f32⟩
  | .hbm, ⟨29, _⟩ => ⟨S8x64x128, .f32⟩
  | .hbm, ⟨30, _⟩ => ⟨S8x64x262144, .f32⟩
  | .hbm, ⟨31, _⟩ => ⟨S8x262144x64, .f32⟩
  | .hbm, ⟨32, _⟩ => ⟨S_, .f32⟩
  | .hbm, ⟨33, _⟩ => ⟨S8x262144, .f32⟩
  | .hbm, ⟨34, _⟩ => ⟨S_, .f32⟩
  | .hbm, ⟨35, _⟩ => ⟨S8x262144, .f32⟩
  | .hbm, ⟨36, _⟩ => ⟨S8x262144, .f32⟩
  | .hbm, ⟨37, _⟩ => ⟨S8x262144x1, .f32⟩
  | .hbm, ⟨38, _⟩ => ⟨S8x262144x64, .f32⟩
  | .hbm, ⟨39, _⟩ => ⟨S8x262144x64, .f32⟩
  | .hbm, ⟨40, _⟩ => ⟨S8x262144x64, .f32⟩
  | .hbm, ⟨41, _⟩ => ⟨S_, .f32⟩
  | .hbm, ⟨42, _⟩ => ⟨S8x262144, .f32⟩
  | .hbm, ⟨43, _⟩ => ⟨S8x262144x1, .f32⟩
  | .hbm, ⟨44, _⟩ => ⟨S8x262144x64, .f32⟩
  | .hbm, ⟨45, _⟩ => ⟨S8x262144x64, .f32⟩
  | .hbm, ⟨46, _⟩ => ⟨S8x262144x128, .f32⟩
  | .hbm, ⟨47, _⟩ => ⟨S262144x8x128, .f32⟩
  | .hbm, ⟨48, _⟩ => ⟨S262144x1024, .f32⟩
  | .hbm, ⟨49, _⟩ => ⟨S262144x128, .f32⟩
  | .hbm, ⟨50, _⟩ => ⟨S1x128, .f32⟩
  | .hbm, ⟨51, _⟩ => ⟨S262144x128, .f32⟩
  | .hbm, ⟨52, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  bcast_S8x128_S8x1x128_0_2 : S8x128.BroadcastsInDim S8x1x128 (![0, 2] : Fin 2 → Fin S8x1x128.rank)
  bcast_S8x1x128_S8x64x128_0_1_2 : S8x1x128.BroadcastsInDim S8x64x128 (![0, 1, 2] : Fin 3 → Fin S8x64x128.rank)
  reducesTo_S8x64x128_S8x64_d2 : S8x64x128.ReducesTo [2] S8x64
  h_S_ : 0 < S_.numel
  bcast_S_S8x64 : S_.BroadcastsInDim S8x64 (![] : Fin 0 → Fin S8x64.rank)
  bcast_S8x64_S8x64x1_0_1 : S8x64.BroadcastsInDim S8x64x1 (![0, 1] : Fin 2 → Fin S8x64x1.rank)
  bcast_S8x64x1_S8x64x128_0_1_2 : S8x64x1.BroadcastsInDim S8x64x128 (![0, 1, 2] : Fin 3 → Fin S8x64x128.rank)
  transposes_S8x64x262144_S8x262144x64_0_2_1 : S8x64x262144.Transposes [0, 2, 1] S8x262144x64
  reducesTo_S8x262144x64_S8x262144_d2 : S8x262144x64.ReducesTo [2] S8x262144
  bcast_S_S8x262144 : S_.BroadcastsInDim S8x262144 (![] : Fin 0 → Fin S8x262144.rank)
  bcast_S8x262144_S8x262144x1_0_1 : S8x262144.BroadcastsInDim S8x262144x1 (![0, 1] : Fin 2 → Fin S8x262144x1.rank)
  bcast_S8x262144x1_S8x262144x64_0_1_2 : S8x262144x1.BroadcastsInDim S8x262144x64 (![0, 1, 2] : Fin 3 → Fin S8x262144x64.rank)
  transposes_S8x262144x128_S262144x8x128_1_0_2 : S8x262144x128.Transposes [1, 0, 2] S262144x8x128
  shapeCasts_S262144x8x128_S262144x1024 : S262144x8x128.ShapeCasts S262144x1024
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  dot_S8x64x128_S8x128x128_S8x64x128_2_1_1_2_0_0_wf : DotDims.WF S8x64x128 S8x128x128 S8x64x128 [2] [1] [1] [2] [0] [0]
  dot_S8x64x128_S262144x128_S8x64x262144_2_1_01_0_n_n_wf : DotDims.WF S8x64x128 S262144x128 S8x64x262144 [2] [1] [0, 1] [0] [] []
  dot_S8x262144x64_S8x64x128_S8x262144x128_2_1_1_2_0_0_wf : DotDims.WF S8x262144x64 S8x64x128 S8x262144x128 [2] [1] [1] [2] [0] [0]
  dot_S262144x1024_S1024x128_S262144x128_1_0_0_1_n_n_wf : DotDims.WF S262144x1024 S1024x128 S262144x128 [1] [0] [0] [1] [] []

variable [Facts₀]

def dot_S8x64x128_S8x128x128_S8x64x128_2_1_1_2_0_0 : DotDims S8x64x128 S8x128x128 S8x64x128 where
  lhsContracting := [2]
  rhsContracting := [1]
  lhsNonContracting := [1]
  rhsNonContracting := [2]
  lhsBatch := [0]
  rhsBatch := [0]
  wf := dot_S8x64x128_S8x128x128_S8x64x128_2_1_1_2_0_0_wf
def dot_S8x64x128_S262144x128_S8x64x262144_2_1_01_0_n_n : DotDims S8x64x128 S262144x128 S8x64x262144 where
  lhsContracting := [2]
  rhsContracting := [1]
  lhsNonContracting := [0, 1]
  rhsNonContracting := [0]
  lhsBatch := []
  rhsBatch := []
  wf := dot_S8x64x128_S262144x128_S8x64x262144_2_1_01_0_n_n_wf
def dot_S8x262144x64_S8x64x128_S8x262144x128_2_1_1_2_0_0 : DotDims S8x262144x64 S8x64x128 S8x262144x128 where
  lhsContracting := [2]
  rhsContracting := [1]
  lhsNonContracting := [1]
  rhsNonContracting := [2]
  lhsBatch := [0]
  rhsBatch := [0]
  wf := dot_S8x262144x64_S8x64x128_S8x262144x128_2_1_1_2_0_0_wf
def dot_S262144x1024_S1024x128_S262144x128_1_0_0_1_n_n : DotDims S262144x1024 S1024x128 S262144x128 where
  lhsContracting := [1]
  rhsContracting := [0]
  lhsNonContracting := [0]
  rhsNonContracting := [1]
  lhsBatch := []
  rhsBatch := []
  wf := dot_S262144x1024_S1024x128_S262144x128_1_0_0_1_n_n_wf

class Facts : Prop extends Facts₀ where

variable [Facts]
-- ==== Proof.KernelRun.lean ====
/-
  The idealized kernel program's run with its RESULT array named.

  The program is two kernel launches among two stretches of host operations.  Its run from any memory terminates, and
  in every final state the result array main_v0 holds what the fold of the four segments leaves there (the contents
  `W4` at the last boundary), while the eight argument arrays are as launched.  The termination argument is the one of
  the program's frame: the segments' run, the launch over them, and the last thread state read against the final
  state; only the property read off the final state is larger (the result array is read beside the arguments).
-/
import proofs.«167654_g45337674776981_feedfinal_438_9_alg».proof.Proof.Gen.KernelIdeal.Frame

set_option maxRecDepth 16384

noncomputable section

namespace Cert.Mhm.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the result array holds the
    last boundary's contents and every argument array is as launched. -/
theorem run_value : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Mhm.Run

end
-- ==== Proof.Spec.lean ====
/-
  Multi-head softmax attention over a small learned memory bank, written as functions on the extended reals.

  Heads h < 8, memory slots m < 64, feature lanes j, u, v < 128, query rows n < 262144.  A flat column c < 512 stands
  for the pair (h, m) with c = 64 h + m; a flat feature f < 1024 stands for the pair (h, u) with f = 128 h + u.

  Shared by both arrangements:
    logit h m j  = (Σ_d mems h m d · Wk h d j) + bk h j
    memKey h m j = exp (logit h m j - max_j' logit h m j') / Σ_j' exp (logit h m j' - max …)        (a row softmax)
    memVal h m u = (Σ_d mems h m d · Wv h d u) + bv h u
  The fused arrangement (`kernelOut`) scores every flat column at once, normalises each exponential by the sum of the
  exponentials of its own head's 64 columns (the 0/1 mask `segMask`), with NO maximum subtracted, and contracts the 512
  weights in two halves of 256 against the rows  Σ_u memVal h m u · Wf (128 h + u) v  of a precomputed table.
  The head-by-head arrangement (`refOut`) takes, per head, the softmax of the scores with the row maximum subtracted,
  the weighted sum of the head's values, and contracts the 1024 concatenated features with Wf.
-/
import Idealize.ShloMosaic.PureOps.Ideal

noncomputable section

open scoped BigOperators

namespace Cert.Mhm

open Idealize.ShloMosaic

/-- The head of flat column c = 64 h + m. -/
def colHead (c : Fin 512) : Fin 8 := ⟨c.val / 64, by omega⟩
/-- The memory slot of flat column c = 64 h + m. -/
def colSlot (c : Fin 512) : Fin 64 := ⟨c.val % 64, by omega⟩
/-- Column c of the first half of the 512 flat columns. -/
def lo (c : Fin 256) : Fin 512 := ⟨c.val, by omega⟩
/-- Column 256 + c, of the second half. -/
def hi (c : Fin 256) : Fin 512 := ⟨256 + c.val, by omega⟩
/-- The head of flat feature f = 128 h + u. -/
def featHead (f : Fin 1024) : Fin 8 := ⟨f.val / 128, by omega⟩
/-- The lane of flat feature f = 128 h + u. -/
def featLane (f : Fin 1024) : Fin 128 := ⟨f.val % 128, by omega⟩
/-- The flat feature 128 h + u. -/
def feat (h : Fin 8) (u : Fin 128) : Fin 1024 := ⟨h.val * 128 + u.val, by omega⟩

/-! ## The memory keys and values (shared) -/

section Shared
variable (mems : Fin 8 → Fin 64 → Fin 128 → EReal) (W : Fin 8 → Fin 128 → Fin 128 → EReal) (b : Fin 8 → Fin 128 → EReal)

/-- One head's affine map of the memory rows: (Σ_d mems h m d · W h d j) + b h j. -/
def logit (h : Fin 8) (m : Fin 64) (j : Fin 128) : EReal := (∑ d : Fin 128, mems h m d * W h d j) + b h j
/-- The maximum of a row of logits (the fold of max from -∞). -/
def logitMax (h : Fin 8) (m : Fin 64) : EReal :=
  (Finset.univ : Finset (Fin 128)).fold max ⊥ (fun j => logit mems W b h m j)
/-- exp (logit - row maximum). -/
def keyExp (h : Fin 8) (m : Fin 64) (j : Fin 128) : EReal := Ideal.exp (logit mems W b h m j - logitMax mems W b h m)
/-- The memory keys: the softmax of each row of logits. -/
def memKey (h : Fin 8) (m : Fin 64) (j : Fin 128) : EReal :=
  Ideal.div (keyExp mems W b h m j) (∑ j' : Fin 128, keyExp mems W b h m j')
end Shared

/-! ## The fused arrangement -/

section Fused
variable (k : Fin 262144 → Fin 128 → EReal) (MK G : Fin 512 → Fin 128 → EReal) (seg : Fin 512 → Fin 512 → EReal)
  (bf : Fin 128 → EReal)

/-- The score of query row n against flat column c. -/
def kScore (n : Fin 262144) (c : Fin 512) : EReal := ∑ j : Fin 128, k n j * MK c j
/-- exp (score) over the masked sum of the exponentials. -/
def kWeight (n : Fin 262144) (c : Fin 512) : EReal :=
  Ideal.div (Ideal.exp (kScore k MK n c)) (∑ j : Fin 512, Ideal.exp (kScore k MK n j) * seg j c)
/-- The fused output from ANY key table MK, value table G and mask seg. -/
def kOut (n : Fin 262144) (v : Fin 128) : EReal :=
  ((∑ c : Fin 256, kWeight k MK seg n (lo c) * G (lo c) v) + (∑ c : Fin 256, kWeight k MK seg n (hi c) * G (hi c) v)) + bf v
end Fused

section Tables
variable (mems : Fin 8 → Fin 64 → Fin 128 → EReal)
  (Wk : Fin 8 → Fin 128 → Fin 128 → EReal) (bk : Fin 8 → Fin 128 → EReal)
  (Wv : Fin 8 → Fin 128 → Fin 128 → EReal) (bv : Fin 8 → Fin 128 → EReal)
  (Wf : Fin 1024 → Fin 128 → EReal)

/-- The key table: row c = 64 h + m holds memKey h m. -/
def mkFlat (c : Fin 512) (j : Fin 128) : EReal := memKey mems Wk bk (colHead c) (colSlot c) j
/-- The value table: row c = 64 h + m holds Σ_u memVal h m u · Wf (128 h + u) v. -/
def gFlat (c : Fin 512) (v : Fin 128) : EReal :=
  ∑ u : Fin 128, logit mems Wv bv (colHead c) (colSlot c) u * Wf (feat (colHead c) u) v
/-- The 0/1 mask of "same head": columns j and c lie in the same group of 64. -/
def segMask (j c : Fin 512) : EReal := if j.val / 64 = c.val / 64 then 1 else 0
end Tables

section Outputs
variable (k : Fin 262144 → Fin 128 → EReal) (mems : Fin 8 → Fin 64 → Fin 128 → EReal)
  (Wk : Fin 8 → Fin 128 → Fin 128 → EReal) (bk : Fin 8 → Fin 128 → EReal)
  (Wv : Fin 8 → Fin 128 → Fin 128 → EReal) (bv : Fin 8 → Fin 128 → EReal)
  (Wf : Fin 1024 → Fin 128 → EReal) (bf : Fin 128 → EReal)

/-- The fused arrangement's output at row n, lane v. -/
def kernelOut (n : Fin 262144) (v : Fin 128) : EReal :=
  kOut k (mkFlat mems Wk bk) (gFlat mems Wv bv Wf) segMask bf n v

/-! ## The head-by-head arrangement -/

/-- The score of query row n against slot m of head h (the key on the left of the product). -/
def rScore (h : Fin 8) (n : Fin 262144) (m : Fin 64) : EReal := ∑ j : Fin 128, memKey mems Wk bk h m j * k n j
/-- The maximum of a head's 64 scores (the fold of max from -∞). -/
def rScoreMax (h : Fin 8) (n : Fin 262144) : EReal :=
  (Finset.univ : Finset (Fin 64)).fold max ⊥ (fun m => rScore k mems Wk bk h n m)
/-- exp (score - maximum). -/
def rExp (h : Fin 8) (n : Fin 262144) (m : Fin 64) : EReal :=
  Ideal.exp (rScore k mems Wk bk h n m - rScoreMax k mems Wk bk h n)
/-- The attention weights: the softmax of a head's scores. -/
def rWeight (h : Fin 8) (n : Fin 262144) (m : Fin 64) : EReal :=
  Ideal.div (rExp k mems Wk bk h n m) (∑ m' : Fin 64, rExp k mems Wk bk h n m')
/-- One head's output: the weighted sum of its memory values. -/
def rHeadOut (h : Fin 8) (n : Fin 262144) (u : Fin 128) : EReal :=
  ∑ m : Fin 64, rWeight k mems Wk bk h n m * logit mems Wv bv h m u
/-- The head-by-head arrangement's output at row n, lane v. -/
def refOut (n : Fin 262144) (v : Fin 128) : EReal :=
  (∑ f : Fin 1024, rHeadOut k mems Wk bk Wv bv (featHead f) n (featLane f) * Wf f v) + bf v
end Outputs

end Cert.Mhm

end
-- ==== Proof.Fused.lean ====
/-
  The fused arrangement's output as one function of the eight argument arrays (queries [262144, 128], memory bank
  [8, 64, 128], key weights [8, 128, 128], key bias [8, 128], value weights [8, 128, 128], value bias [8, 128], output
  projection [1024, 128], output bias [128]), each read by coordinates.
-/
import proofs.«167654_g45337674776981_feedfinal_438_9_alg».proof.Proof.Spec
import Idealize.ShloMosaic.Lib.ValueIdx

noncomputable section

namespace Cert.Mhm

open Idealize.ShloMosaic Idealize.ShloMosaic.ValueIdx

/-- The fused arrangement's output array, from the eight argument arrays. -/
def fused (a0 : (⟨2, ![262144, 128]⟩ : Shape).Idx → EReal) (a1 : (⟨3, ![8, 64, 128]⟩ : Shape).Idx → EReal)
    (a2 : (⟨3, ![8, 128, 128]⟩ : Shape).Idx → EReal) (a3 : (⟨2, ![8, 128]⟩ : Shape).Idx → EReal)
    (a4 : (⟨3, ![8, 128, 128]⟩ : Shape).Idx → EReal) (a5 : (⟨2, ![8, 128]⟩ : Shape).Idx → EReal)
    (a6 : (⟨2, ![1024, 128]⟩ : Shape).Idx → EReal) (a7 : (⟨1, ![128]⟩ : Shape).Idx → EReal) :
    (⟨2, ![262144, 128]⟩ : Shape).Idx → EReal := fun i =>
  kernelOut (fun n j => a0 (ix2 n j)) (fun h m d => a1 (ix3 h m d)) (fun h d j => a2 (ix3 h d j)) (fun h j => a3 (ix2 h j))
    (fun h d u => a4 (ix3 h d u)) (fun h u => a5 (ix2 h u)) (fun f v => a6 (ix2 f v)) (fun v => a7 (ix1 v)) (i 0) (i 1)

end Cert.Mhm

end
-- ==== Proof.PrepValue.lean ====
/-
  The first launch (one grid point per head): from the blocks to the arrays.

  Grid point t works on head t.  Its input blocks are head t's slices of the memory bank, of the key and value weights
  and biases, and rows 128 t … 128 t + 127 of the output projection; its two output blocks are rows 64 t … 64 t + 63 of
  the key table and of the value table.  Given what the body leaves in its two output buffers as a function of its
  input blocks (`KeyBody`, `ValBody`), what point t writes back is block t of ONE table defined on the whole array
  (`keyTable`, `valTable`); the eight blocks tile the 512 rows (row r lies in block r / 64), so after the launch the
  two arrays hold the two tables.
-/
import proofs.«167654_g45337674776981_feedfinal_438_9_alg».proof.Proof.Gen.KernelIdeal.Frame
import proofs.«167654_g45337674776981_feedfinal_438_9_alg».proof.Proof.Spec
import Idealize.ShloMosaic.Lib.Pipeline.Value
import Idealize.ShloMosaic.Lib.ValueIdx

set_option maxRecDepth 16384

noncomputable section

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

namespace Cert.Mhm.R0

/-- What the first kernel's body leaves in the key window's buffer, read at row m, lane j: the softmax over the lanes of
    head h's logits of memory row m — for any blocks that are head h's slices of the memory bank, the key weights and the
    key bias. -/
def KeyBody : Prop :=
  ∀ (x0 : Vec Ideal S1x64x128 .f32) (x1 : Vec Ideal S1x128x128 .f32) (x2 : Vec Ideal S1x1x128 .f32)
    (x3 : Vec Ideal S1x128x128 .f32) (x4 : Vec Ideal S128x128 .f32) (x5 : Vec Ideal S1x1x128 .f32)
    (mems : Fin 8 → Fin 64 → Fin 128 → EReal) (W : Fin 8 → Fin 128 → Fin 128 → EReal) (b : Fin 8 → Fin 128 → EReal) (h : Fin 8),
    (∀ (m : Fin 64) (d : Fin 128), x0 (ix3 (0 : Fin 1) m d) = mems h m d) →
    (∀ (d j : Fin 128), x1 (ix3 (0 : Fin 1) d j) = W h d j) →
    (∀ j : Fin 128, x2 (ix3 (0 : Fin 1) (0 : Fin 1) j) = b h j) → ∀ (m : Fin 64) (j : Fin 128),
    out0_6 (F := Ideal) x0 x1 x2 x3 x4 x5 (ix2 m j) = Cert.Mhm.memKey mems W b h m j

/-- What the first kernel's body leaves in the value window's buffer, read at row m, lane v: head h's memory value row m
    contracted with head h's 128 rows of the output projection. -/
def ValBody : Prop :=
  ∀ (x0 : Vec Ideal S1x64x128 .f32) (x1 : Vec Ideal S1x128x128 .f32) (x2 : Vec Ideal S1x1x128 .f32)
    (x3 : Vec Ideal S1x128x128 .f32) (x4 : Vec Ideal S128x128 .f32) (x5 : Vec Ideal S1x1x128 .f32)
    (mems : Fin 8 → Fin 64 → Fin 128 → EReal) (Wv : Fin 8 → Fin 128 → Fin 128 → EReal) (bv : Fin 8 → Fin 128 → EReal)
    (Wf : Fin 1024 → Fin 128 → EReal) (h : Fin 8),
    (∀ (m : Fin 64) (d : Fin 128), x0 (ix3 (0 : Fin 1) m d) = mems h m d) →
    (∀ (d u : Fin 128), x3 (ix3 (0 : Fin 1) d u) = Wv h d u) →
    (∀ u : Fin 128, x5 (ix3 (0 : Fin 1) (0 : Fin 1) u) = bv h u) →
    (∀ (u v : Fin 128), x4 (ix2 u v) = Wf (Cert.Mhm.feat h u) v) → ∀ (m : Fin 64) (v : Fin 128),
    out0_7 (F := Ideal) x0 x1 x2 x3 x4 x5 (ix2 m v) = ∑ u : Fin 128, Cert.Mhm.logit mems Wv bv h m u * Wf (Cert.Mhm.feat h u) v

variable (V : (c : Dev nD) → (b : Ref sig .tc) → Buf (Elt Ideal) ((c : Thread nD τ).loc b)) (c : Dev nD)

/-- The argument arrays as the first launch finds them, by coordinates. -/
def memsOf : Fin 8 → Fin 64 → Fin 128 → EReal := fun h m d => V c main_arg1 (ix3 h m d)
def wkOf : Fin 8 → Fin 128 → Fin 128 → EReal := fun h d j => V c main_arg2 (ix3 h d j)
def bkOf : Fin 8 → Fin 128 → EReal := fun h j => V c main_call0_v0 (ix3 h (0 : Fin 1) j)
def wvOf : Fin 8 → Fin 128 → Fin 128 → EReal := fun h d u => V c main_arg4 (ix3 h d u)
def bvOf : Fin 8 → Fin 128 → EReal := fun h u => V c main_call0_v1 (ix3 h (0 : Fin 1) u)
def wfOf : Fin 1024 → Fin 128 → EReal := fun f v => V c main_arg6 (ix2 f v)

theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The head a grid point works on. -/
def headOf (t : Fin cfg0.N) : Fin 8 := ⟨t.val, by have h : t.val < grid0.N := t.isLt; rw [N_0] at h; exact h⟩

theorem blk0 (t : Fin cfg0.N) (p : Fin 64) (d : Fin 128) :
    iblk0 V c 0 t (ix3 (0 : Fin 1) p d) = memsOf V c (headOf t) p d := by
  obtain ⟨e0, e1, e2, -⟩ := idx_facts t
  show V c main_arg1 (((cfg0.win 0).blk t).view.emb (ix3 (0 : Fin 1) p d)) = V c main_arg1 (ix3 (headOf t) p d)
  refine congrArg (V c main_arg1) (funext fun a => Fin.ext ?_)
  match a with
  | ⟨0, _⟩ => show win0_0.index t (0 : Fin 3) * 1 + 1 * 0 = t.val; omega
  | ⟨1, _⟩ => show win0_0.index t (1 : Fin 3) * 64 + 1 * p.val = p.val; omega
  | ⟨2, _⟩ => show win0_0.index t (2 : Fin 3) * 128 + 1 * d.val = d.val; omega

theorem blk1 (t : Fin cfg0.N) (d j : Fin 128) :
    iblk0 V c 1 t (ix3 (0 : Fin 1) d j) = wkOf V c (headOf t) d j := by
  obtain ⟨-, -, -, e0, e1, e2, -⟩ := idx_facts t
  show V c main_arg2 (((cfg0.win 1).blk t).view.emb (ix3 (0 : Fin 1) d j)) = V c main_arg2 (ix3 (headOf t) d j)
  refine congrArg (V c main_arg2) (funext fun a => Fin.ext ?_)
  match a with
  | ⟨0, _⟩ => show win0_1.index t (0 : Fin 3) * 1 + 1 * 0 = t.val; omega
  | ⟨1, _⟩ => show win0_1.index t (1 : Fin 3) * 128 + 1 * d.val = d.val; omega
  | ⟨2, _⟩ => show win0_1.index t (2 : Fin 3) * 128 + 1 * j.val = j.val; omega

theorem blk2 (t : Fin cfg0.N) (j : Fin 128) :
    iblk0 V c 2 t (ix3 (0 : Fin 1) (0 : Fin 1) j) = bkOf V c (headOf t) j := by
  obtain ⟨-, -, -, -, -, -, e0, e1, e2, -⟩ := idx_facts t
  show V c main_call0_v0 (((cfg0.win 2).blk t).view.emb (ix3 (0 : Fin 1) (0 : Fin 1) j)) = V c main_call0_v0 (ix3 (headOf t) (0 : Fin 1) j)
  refine congrArg (V c main_call0_v0) (funext fun a => Fin.ext ?_)
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 128 + 1 * j.val = j.val; omega

theorem blk3 (t : Fin cfg0.N) (d u : Fin 128) :
    iblk0 V c 3 t (ix3 (0 : Fin 1) d u) = wvOf V c (headOf t) d u := by
  obtain ⟨-, -, -, -, -, -, -, -, -, e0, e1, e2, -⟩ := idx_facts t
  show V c main_arg4 (((cfg0.win 3).blk t).view.emb (ix3 (0 : Fin 1) d u)) = V c main_arg4 (ix3 (headOf t) d u)
  refine congrArg (V c main_arg4) (funext fun a => Fin.ext ?_)
  match a with
  | ⟨0, _⟩ => show win0_3.index t (0 : Fin 3) * 1 + 1 * 0 = t.val; omega
  | ⟨1, _⟩ => show win0_3.index t (1 : Fin 3) * 128 + 1 * d.val = d.val; omega
  | ⟨2, _⟩ => show win0_3.index t (2 : Fin 3) * 128 + 1 * u.val = u.val; omega

theorem blk4 (t : Fin cfg0.N) (u v : Fin 128) :
    iblk0 V c 4 t (ix2 u v) = wfOf V c (Cert.Mhm.feat (headOf t) u) v := by
  obtain ⟨-, -, -, -, -, -, -, -, -, -, -, -, e0, e1, -⟩ := idx_facts t
  show V c main_arg6 (((cfg0.win 4).blk t).view.emb (ix2 u v)) = V c main_arg6 (ix2 (Cert.Mhm.feat (headOf t) u) v)
  refine congrArg (V c main_arg6) (funext fun a => Fin.ext ?_)
  match a with
  | ⟨0, _⟩ => show win0_4.index t (0 : Fin 2) * 128 + 1 * u.val = t.val * 128 + u.val; omega
  | ⟨1, _⟩ => show win0_4.index t (1 : Fin 2) * 128 + 1 * v.val = v.val; omega

theorem blk5 (t : Fin cfg0.N) (u : Fin 128) :
    iblk0 V c 5 t (ix3 (0 : Fin 1) (0 : Fin 1) u) = bvOf V c (headOf t) u := by
  obtain ⟨-, -, -, -, -, -, -, -, -, -, -, -, -, -, e0, e1, e2, -⟩ := idx_facts t
  show V c main_call0_v1 (((cfg0.win 5).blk t).view.emb (ix3 (0 : Fin 1) (0 : Fin 1) u)) = V c main_call0_v1 (ix3 (headOf t) (0 : Fin 1) u)
  refine congrArg (V c main_call0_v1) (funext fun a => Fin.ext ?_)
  match a with
  | ⟨0, _⟩ => show win0_5.index t (0 : Fin 3) * 1 + 1 * 0 = t.val; omega
  | ⟨1, _⟩ => show win0_5.index t (1 : Fin 3) * 1 + 1 * 0 = 0; omega
  | ⟨2, _⟩ => show win0_5.index t (2 : Fin 3) * 128 + 1 * u.val = u.val; omega

/-- The key table the first launch leaves: row 64 h + m holds the softmax of head h's logits of memory row m. -/
def keyTable : S512x128.Idx → EReal := fun i =>
  Cert.Mhm.mkFlat (memsOf V c) (wkOf V c) (bkOf V c) (i 0) (i 1)
/-- The value table the first launch leaves. -/
def valTable : S512x128.Idx → EReal := fun i =>
  Cert.Mhm.gFlat (memsOf V c) (wvOf V c) (bvOf V c) (wfOf V c) (i 0) (i 1)

theorem colHead_blk (t : Fin cfg0.N) (p : Fin 64) (x : Fin 512) (hx : x.val = t.val * 64 + p.val) :
    Cert.Mhm.colHead x = headOf t ∧ Cert.Mhm.colSlot x = p := by
  constructor
  · apply Fin.ext; show x.val / 64 = t.val; have := p.isLt; omega
  · apply Fin.ext; show x.val % 64 = p.val; have := p.isLt; omega

theorem flushed6_eq (hb : KeyBody) (t : Fin cfg0.N) :
    (dat0 V c).flushed 6 t = ((cfg0.win 6).blk t).view.read (Elt Ideal) (keyTable V c) := by
  show (cfg0.win 6).cut (grid0.coords t) ((dat0 V c).after 6 t) = _
  rw [after0_6]
  funext y
  obtain ⟨p, q, rfl⟩ : ∃ (p : Fin 64) (q : Fin 128), y = ix2 p q := ⟨y 0, y 1, eq_ix2 y⟩
  show out0_6 (F := Ideal) (iblk0 V c 0 t) (iblk0 V c 1 t) (iblk0 V c 2 t) (iblk0 V c 3 t) (iblk0 V c 4 t) (iblk0 V c 5 t) (ix2 p q)
    = keyTable V c (((cfg0.win 6).blk t).view.emb (ix2 p q))
  refine (hb (iblk0 V c 0 t) (iblk0 V c 1 t) (iblk0 V c 2 t) (iblk0 V c 3 t) (iblk0 V c 4 t) (iblk0 V c 5 t)
    (memsOf V c) (wkOf V c) (bkOf V c) (headOf t) (blk0 V c t) (blk1 V c t) (blk2 V c t) p q).trans ?_
  obtain ⟨-, -, -, -, -, -, -, -, -, -, -, -, -, -, -, -, -, e0, e1, -⟩ := idx_facts t
  have h0 : ((((cfg0.win 6).blk t).view.emb (ix2 p q)) 0).val = t.val * 64 + p.val := by
    show win0_6.index t (0 : Fin 2) * 64 + 1 * p.val = _; omega
  have h1 : ((((cfg0.win 6).blk t).view.emb (ix2 p q)) 1) = q := by
    apply Fin.ext; show win0_6.index t (1 : Fin 2) * 128 + 1 * q.val = _; omega
  obtain ⟨eh, es⟩ := colHead_blk t p _ h0
  show _ = Cert.Mhm.memKey _ _ _ (Cert.Mhm.colHead _) (Cert.Mhm.colSlot _) _
  rw [eh, es, h1]

theorem flushed7_eq (hb : ValBody) (t : Fin cfg0.N) :
    (dat0 V c).flushed 7 t = ((cfg0.win 7).blk t).view.read (Elt Ideal) (valTable V c) := by
  show (cfg0.win 7).cut (grid0.coords t) ((dat0 V c).after 7 t) = _
  rw [after0_7]
  funext y
  obtain ⟨p, q, rfl⟩ : ∃ (p : Fin 64) (q : Fin 128), y = ix2 p q := ⟨y 0, y 1, eq_ix2 y⟩
  show out0_7 (F := Ideal) (iblk0 V c 0 t) (iblk0 V c 1 t) (iblk0 V c 2 t) (iblk0 V c 3 t) (iblk0 V c 4 t) (iblk0 V c 5 t) (ix2 p q)
    = valTable V c (((cfg0.win 7).blk t).view.emb (ix2 p q))
  refine (hb (iblk0 V c 0 t) (iblk0 V c 1 t) (iblk0 V c 2 t) (iblk0 V c 3 t) (iblk0 V c 4 t) (iblk0 V c 5 t)
    (memsOf V c) (wvOf V c) (bvOf V c) (wfOf V c) (headOf t) (blk0 V c t) (blk3 V c t) (blk5 V c t) (blk4 V c t) p q).trans ?_
  obtain ⟨-, -, -, -, -, -, -, -, -, -, -, -, -, -, -, -, -, -, -, e0, e1⟩ := idx_facts t
  have h0 : ((((cfg0.win 7).blk t).view.emb (ix2 p q)) 0).val = t.val * 64 + p.val := by
    show win0_7.index t (0 : Fin 2) * 64 + 1 * p.val = _; omega
  have h1 : ((((cfg0.win 7).blk t).view.emb (ix2 p q)) 1) = q := by
    apply Fin.ext; show win0_7.index t (1 : Fin 2) * 128 + 1 * q.val = _; omega
  obtain ⟨eh, es⟩ := colHead_blk t p _ h0
  show _ = Cert.Mhm.gFlat (memsOf V c) (wvOf V c) (bvOf V c) (wfOf V c) ((((cfg0.win 7).blk t).view.emb (ix2 p q)) 0) ((((cfg0.win 7).blk t).view.emb (ix2 p q)) 1)
  unfold Cert.Mhm.gFlat
  rw [eh, es, h1]

theorem mem_blk6 (t : Fin cfg0.N) (i : S512x128.Idx) :
    i ∈ ((cfg0.win 6).blk t).view.set ↔ ∀ a : Fin 2, win0_6.index t a * S64x128.size a ≤ (i a).val ∧ (i a).val < win0_6.index t a * S64x128.size a + S64x128.size a := by
  show i ∈ ((View.whole main_call0_v2_0).slice (win0_6.rect t)).set ↔ _
  rw [View.set_slice_whole, Rect.mem_set_unit]
  exact Iff.rfl

theorem mem_blk7 (t : Fin cfg0.N) (i : S512x128.Idx) :
    i ∈ ((cfg0.win 7).blk t).view.set ↔ ∀ a : Fin 2, win0_7.index t a * S64x128.size a ≤ (i a).val ∧ (i a).val < win0_7.index t a * S64x128.size a + S64x128.size a := by
  show i ∈ ((View.whole main_call0_v2_1).slice (win0_7.rect t)).set ↔ _
  rw [View.set_slice_whole, Rect.mem_set_unit]
  exact Iff.rfl

/-- The point whose block holds row r of a 512-row table: r / 64. -/
def pointOf (i : S512x128.Idx) : Fin cfg0.N := ⟨(i 0).val / 64, by
  show (i 0).val / 64 < grid0.N
  rw [N_0]; have : (i 0).val < 512 := (i 0).isLt; omega⟩

theorem cover6 (i : S512x128.Idx) : ∃ t : Fin cfg0.N, (cfg0.win 6).flush t = true ∧ i ∈ ((cfg0.win 6).blk t).view.set := by
  refine ⟨pointOf i, flush0_6 _, ?_⟩
  rw [mem_blk6]
  obtain ⟨-, -, -, -, -, -, -, -, -, -, -, -, -, -, -, -, -, e0, e1, -⟩ := idx_facts (pointOf i)
  have hp : (pointOf i).val = (i 0).val / 64 := rfl
  have hi1 : (i 1).val < 128 := (i 1).isLt
  intro a
  match a with
  | ⟨0, _⟩ => show win0_6.index (pointOf i) (0 : Fin 2) * 64 ≤ (i 0).val ∧ (i 0).val < win0_6.index (pointOf i) (0 : Fin 2) * 64 + 64; omega
  | ⟨1, _⟩ => show win0_6.index (pointOf i) (1 : Fin 2) * 128 ≤ (i 1).val ∧ (i 1).val < win0_6.index (pointOf i) (1 : Fin 2) * 128 + 128; omega

theorem cover7 (i : S512x128.Idx) : ∃ t : Fin cfg0.N, (cfg0.win 7).flush t = true ∧ i ∈ ((cfg0.win 7).blk t).view.set := by
  refine ⟨pointOf i, flush0_7 _, ?_⟩
  rw [mem_blk7]
  obtain ⟨-, -, -, -, -, -, -, -, -, -, -, -, -, -, -, -, -, -, -, e0, e1⟩ := idx_facts (pointOf i)
  have hp : (pointOf i).val = (i 0).val / 64 := rfl
  have hi1 : (i 1).val < 128 := (i 1).isLt
  intro a
  match a with
  | ⟨0, _⟩ => show win0_7.index (pointOf i) (0 : Fin 2) * 64 ≤ (i 0).val ∧ (i 0).val < win0_7.index (pointOf i) (0 : Fin 2) * 64 + 64; omega
  | ⟨1, _⟩ => show win0_7.index (pointOf i) (1 : Fin 2) * 128 ≤ (i 1).val ∧ (i 1).val < win0_7.index (pointOf i) (1 : Fin 2) * 128 + 128; omega

/-- After the first launch the key array holds the key table. -/
theorem final6 (hb : KeyBody) : (dat0 V c).arrAt 6 cfg0.N = keyTable V c :=
  (dat0 V c).arrAt_eq_of_cover 6 (keyTable V c) (fun t _ => flushed6_eq V c hb t) (cover6)

/-- After the first launch the value array holds the value table. -/
theorem final7 (hb : ValBody) : (dat0 V c).arrAt 7 cfg0.N = valTable V c :=
  (dat0 V c).arrAt_eq_of_cover 7 (valTable V c) (fun t _ => flushed7_eq V c hb t) (cover7)

end Cert.Mhm.R0
end
-- ==== Proof.MainValue.lean ====
/-
  The second launch (one grid point per block of 2048 query rows): from the blocks to the array.

  Grid point t reads rows 2048 t … 2048 t + 2047 of the queries and, whole, the key table, the value table, the mask and
  the bias row; it writes rows 2048 t … 2048 t + 2047 of the result.  Given what the body leaves in its output buffer as
  a function of its input blocks (`MainBody`), what point t writes back is block t of ONE function of the whole arrays
  (`outTable`); the 128 blocks tile the 262144 rows (row n lies in block n / 2048), so after the launch the result
  array holds that function.
-/
import proofs.«167654_g45337674776981_feedfinal_438_9_alg».proof.Proof.Gen.KernelIdeal.Frame
import proofs.«167654_g45337674776981_feedfinal_438_9_alg».proof.Proof.Spec
import Idealize.ShloMosaic.Lib.Pipeline.Value
import Idealize.ShloMosaic.Lib.ValueIdx

set_option maxRecDepth 16384

noncomputable section

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

namespace Cert.Mhm.R1

/-- What the second kernel's body leaves in the result window's buffer, read at row r, lane v: the fused arrangement's
    output for the query row that row r of the query block is — for any key table, value table, mask and bias row the
    resident blocks hold. -/
def MainBody : Prop :=
  ∀ (x0 : Vec Ideal S2048x128 .f32) (x1 : Vec Ideal S512x128 .f32) (x2 : Vec Ideal S512x128 .f32)
    (x3 : Vec Ideal S512x512 .f32) (x4 : Vec Ideal S1x128 .f32)
    (k : Fin 262144 → Fin 128 → EReal) (MK G : Fin 512 → Fin 128 → EReal) (seg : Fin 512 → Fin 512 → EReal) (bf : Fin 128 → EReal)
    (n : Fin 262144) (r : Fin 2048),
    (∀ j : Fin 128, x0 (ix2 r j) = k n j) → (∀ (c : Fin 512) (j : Fin 128), x1 (ix2 c j) = MK c j) →
    (∀ (c : Fin 512) (v : Fin 128), x2 (ix2 c v) = G c v) → (∀ j c : Fin 512, x3 (ix2 j c) = seg j c) →
    (∀ v : Fin 128, x4 (ix2 (0 : Fin 1) v) = bf v) → ∀ v : Fin 128,
    out1_5 (F := Ideal) x0 x1 x2 x3 x4 (ix2 r v) = Cert.Mhm.kOut k MK G seg bf n v

variable (V : (c : Dev nD) → (b : Ref sig .tc) → Buf (Elt Ideal) ((c : Thread nD τ).loc b)) (c : Dev nD)

/-- The arrays as the second launch finds them, by coordinates. -/
def kOf : Fin 262144 → Fin 128 → EReal := fun n j => V c main_arg0 (ix2 n j)
def mkOf : Fin 512 → Fin 128 → EReal := fun x j => V c main_call0_v2_0 (ix2 x j)
def gOf : Fin 512 → Fin 128 → EReal := fun x v => V c main_call0_v2_1 (ix2 x v)
def segOf : Fin 512 → Fin 512 → EReal := fun j x => V c main_call0_v12 (ix2 j x)
def bfOf : Fin 128 → EReal := fun v => V c main_call0_v13 (ix2 (0 : Fin 1) v)

theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The query row that row r of grid point t's block is. -/
def rowOf (t : Fin cfg1.N) (r : Fin 2048) : Fin 262144 := ⟨t.val * 2048 + r.val, by
  have h : t.val < grid1.N := t.isLt
  rw [N_1] at h; have := r.isLt; omega⟩

theorem blk0 (t : Fin cfg1.N) (r : Fin 2048) (j : Fin 128) :
    iblk1 V c 0 t (ix2 r j) = kOf V c (rowOf t r) j := by
  obtain ⟨e0, e1, -⟩ := idx_facts t
  show V c main_arg0 (((cfg1.win 0).blk t).view.emb (ix2 r j)) = V c main_arg0 (ix2 (rowOf t r) j)
  refine congrArg (V c main_arg0) (funext fun a => Fin.ext ?_)
  match a with
  | ⟨0, _⟩ => show win1_0.index t (0 : Fin 2) * 2048 + 1 * r.val = t.val * 2048 + r.val; omega
  | ⟨1, _⟩ => show win1_0.index t (1 : Fin 2) * 128 + 1 * j.val = j.val; omega

theorem blk1 (t : Fin cfg1.N) (x : Fin 512) (j : Fin 128) :
    iblk1 V c 1 t (ix2 x j) = mkOf V c x j := by
  obtain ⟨-, -, e0, e1, -⟩ := idx_facts t
  show V c main_call0_v2_0 (((cfg1.win 1).blk t).view.emb (ix2 x j)) = V c main_call0_v2_0 (ix2 x j)
  refine congrArg (V c main_call0_v2_0) (funext fun a => Fin.ext ?_)
  match a with
  | ⟨0, _⟩ => show win1_1.index t (0 : Fin 2) * 512 + 1 * x.val = x.val; omega
  | ⟨1, _⟩ => show win1_1.index t (1 : Fin 2) * 128 + 1 * j.val = j.val; omega

theorem blk2 (t : Fin cfg1.N) (x : Fin 512) (v : Fin 128) :
    iblk1 V c 2 t (ix2 x v) = gOf V c x v := by
  obtain ⟨-, -, -, -, e0, e1, -⟩ := idx_facts t
  show V c main_call0_v2_1 (((cfg1.win 2).blk t).view.emb (ix2 x v)) = V c main_call0_v2_1 (ix2 x v)
  refine congrArg (V c main_call0_v2_1) (funext fun a => Fin.ext ?_)
  match a with
  | ⟨0, _⟩ => show win1_2.index t (0 : Fin 2) * 512 + 1 * x.val = x.val; omega
  | ⟨1, _⟩ => show win1_2.index t (1 : Fin 2) * 128 + 1 * v.val = v.val; omega

theorem blk3 (t : Fin cfg1.N) (j x : Fin 512) :
    iblk1 V c 3 t (ix2 j x) = segOf V c j x := by
  obtain ⟨-, -, -, -, -, -, e0, e1, -⟩ := idx_facts t
  show V c main_call0_v12 (((cfg1.win 3).blk t).view.emb (ix2 j x)) = V c main_call0_v12 (ix2 j x)
  refine congrArg (V c main_call0_v12) (funext fun a => Fin.ext ?_)
  match a with
  | ⟨0, _⟩ => show win1_3.index t (0 : Fin 2) * 512 + 1 * j.val = j.val; omega
  | ⟨1, _⟩ => show win1_3.index t (1 : Fin 2) * 512 + 1 * x.val = x.val; omega

theorem blk4 (t : Fin cfg1.N) (v : Fin 128) :
    iblk1 V c 4 t (ix2 (0 : Fin 1) v) = bfOf V c v := by
  obtain ⟨-, -, -, -, -, -, -, -, e0, e1, -⟩ := idx_facts t
  show V c main_call0_v13 (((cfg1.win 4).blk t).view.emb (ix2 (0 : Fin 1) v)) = V c main_call0_v13 (ix2 (0 : Fin 1) v)
  refine congrArg (V c main_call0_v13) (funext fun a => Fin.ext ?_)
  match a with
  | ⟨0, _⟩ => show win1_4.index t (0 : Fin 2) * 1 + 1 * 0 = 0; omega
  | ⟨1, _⟩ => show win1_4.index t (1 : Fin 2) * 128 + 1 * v.val = v.val; omega

/-- What the second launch leaves in the result array: the fused arrangement's output of the arrays it finds. -/
def outTable : S262144x128.Idx → EReal := fun i =>
  Cert.Mhm.kOut (kOf V c) (mkOf V c) (gOf V c) (segOf V c) (bfOf V c) (i 0) (i 1)

theorem flushed5_eq (hb : MainBody) (t : Fin cfg1.N) :
    (dat1 V c).flushed 5 t = ((cfg1.win 5).blk t).view.read (Elt Ideal) (outTable V c) := by
  show (cfg1.win 5).cut (grid1.coords t) ((dat1 V c).after 5 t) = _
  rw [after1_5]
  funext y
  obtain ⟨r, q, rfl⟩ : ∃ (r : Fin 2048) (q : Fin 128), y = ix2 r q := ⟨y 0, y 1, eq_ix2 y⟩
  show out1_5 (F := Ideal) (iblk1 V c 0 t) (iblk1 V c 1 t) (iblk1 V c 2 t) (iblk1 V c 3 t) (iblk1 V c 4 t) (ix2 r q)
    = outTable V c (((cfg1.win 5).blk t).view.emb (ix2 r q))
  refine (hb (iblk1 V c 0 t) (iblk1 V c 1 t) (iblk1 V c 2 t) (iblk1 V c 3 t) (iblk1 V c 4 t)
    (kOf V c) (mkOf V c) (gOf V c) (segOf V c) (bfOf V c) (rowOf t r) r (blk0 V c t r) (blk1 V c t) (blk2 V c t) (blk3 V c t) (blk4 V c t) q).trans ?_
  obtain ⟨-, -, -, -, -, -, -, -, -, -, e0, e1⟩ := idx_facts t
  have h0 : ((((cfg1.win 5).blk t).view.emb (ix2 r q)) 0) = rowOf t r := by
    apply Fin.ext; show win1_5.index t (0 : Fin 2) * 2048 + 1 * r.val = t.val * 2048 + r.val; omega
  have h1 : ((((cfg1.win 5).blk t).view.emb (ix2 r q)) 1) = q := by
    apply Fin.ext; show win1_5.index t (1 : Fin 2) * 128 + 1 * q.val = _; omega
  show _ = Cert.Mhm.kOut _ _ _ _ _ ((((cfg1.win 5).blk t).view.emb (ix2 r q)) 0) ((((cfg1.win 5).blk t).view.emb (ix2 r q)) 1)
  rw [h0, h1]

theorem mem_blk5 (t : Fin cfg1.N) (i : S262144x128.Idx) :
    i ∈ ((cfg1.win 5).blk t).view.set ↔ ∀ a : Fin 2, win1_5.index t a * S2048x128.size a ≤ (i a).val ∧ (i a).val < win1_5.index t a * S2048x128.size a + S2048x128.size a := by
  show i ∈ ((View.whole main_v0).slice (win1_5.rect t)).set ↔ _
  rw [View.set_slice_whole, Rect.mem_set_unit]
  exact Iff.rfl

/-- The grid point whose block holds query row n: n / 2048. -/
def pointOf (i : S262144x128.Idx) : Fin cfg1.N := ⟨(i 0).val / 2048, by
  show (i 0).val / 2048 < grid1.N
  rw [N_1]; have : (i 0).val < 262144 := (i 0).isLt; omega⟩

theorem cover5 (i : S262144x128.Idx) : ∃ t : Fin cfg1.N, (cfg1.win 5).flush t = true ∧ i ∈ ((cfg1.win 5).blk t).view.set := by
  refine ⟨pointOf i, flush1_5 _, ?_⟩
  rw [mem_blk5]
  obtain ⟨-, -, -, -, -, -, -, -, -, -, e0, e1⟩ := idx_facts (pointOf i)
  have hp : (pointOf i).val = (i 0).val / 2048 := rfl
  have hi1 : (i 1).val < 128 := (i 1).isLt
  intro a
  match a with
  | ⟨0, _⟩ => show win1_5.index (pointOf i) (0 : Fin 2) * 2048 ≤ (i 0).val ∧ (i 0).val < win1_5.index (pointOf i) (0 : Fin 2) * 2048 + 2048; omega
  | ⟨1, _⟩ => show win1_5.index (pointOf i) (1 : Fin 2) * 128 ≤ (i 1).val ∧ (i 1).val < win1_5.index (pointOf i) (1 : Fin 2) * 128 + 128; omega

/-- After the second launch the result array holds the fused output of the arrays the launch found. -/
theorem final5 (hb : MainBody) : (dat1 V c).arrAt 5 cfg1.N = outTable V c :=
  (dat1 V c).arrAt_eq_of_cover 5 (outTable V c) (fun t _ => flushed5_eq V c hb t) (cover5)

end Cert.Mhm.R1
end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.PrepBodyAffine.lean ====
/-
  One head's affine map of the memory rows, as the first kernel's body computes it, read at an entry.

  The body drops the leading unit axis of the [1,64,128] memory block, of the [1,128,128] weight block and of the
  [1,1,128] bias block, multiplies the [64,128] memory rows by the [128,128] weights into an all-zero accumulator, and adds
  the bias row repeated down the 64 rows.  At entry (m, j) that is  (Σ_d mem(0,m,d) · W(0,d,j)) + bias(0,0,j).
-/
import Idealize.ShloMosaic.Lib.ValueLayout
import proofs.«167654_g45337674776981_feedfinal_438_9_alg».proof.Proof.LibMatmulZero
import proofs.«167654_g45337674776981_feedfinal_438_9_alg».proof.Proof.Gen.KernelIdeal.Skeleton

noncomputable section

open scoped BigOperators

namespace Cert.Mhm.Prep
open Cert.KernelIdeal Cert.KernelIdeal.Gen Idealize.ShloMosaic Idealize.ShloMosaic.ValueIdx

/-- The [64,128] x [128,128] product's dimension numbers carry the result's axis 0 from the left operand's axis 0. -/
theorem dot_hl0 (i : S64x128.Idx) (c : dot_S64x128_S128x128_S64x128_1_0_0_1_n_n.contr.Idx) :
    (dot_S64x128_S128x128_S64x128_1_0_0_1_n_n.lhsIdx i c 0).val = (i 0).val := by
  unfold DotDims.lhsIdx
  rw [dif_neg (show ¬(0 : Fin _) ∈ dot_S64x128_S128x128_S64x128_1_0_0_1_n_n.lhsBatch by decide),
    dif_pos (show (0 : Fin _) ∈ dot_S64x128_S128x128_S64x128_1_0_0_1_n_n.lhsNonContracting by decide)]
  rfl

/-- ... and the result's axis 1 from the right operand's axis 1. -/
theorem dot_hr1 (i : S64x128.Idx) (c : dot_S64x128_S128x128_S64x128_1_0_0_1_n_n.contr.Idx) :
    (dot_S64x128_S128x128_S64x128_1_0_0_1_n_n.rhsIdx i c 1).val = (i 1).val := by
  unfold DotDims.rhsIdx
  rw [dif_neg (show ¬(1 : Fin _) ∈ dot_S64x128_S128x128_S64x128_1_0_0_1_n_n.rhsBatch by decide),
    dif_pos (show (1 : Fin _) ∈ dot_S64x128_S128x128_S64x128_1_0_0_1_n_n.rhsNonContracting by decide)]
  rfl

/-- The product into the zero accumulator at entry (p, q): the sum over the contracted axis. -/
theorem dot_apply (l : FVec Ideal S64x128 .f32) (r : FVec Ideal S128x128 .f32) (p : Fin 64) (q : Fin 128) :
    matmul dot_S64x128_S128x128_S64x128_1_0_0_1_n_n none l r (constant S64x128 .f32 0x00000000#32) (ix2 p q)
      = ∑ k : Fin 128, l (ix2 p k) * r (ix2 k q) :=
  Cert.LibMatmulZero.matmul_zero_ix2 dot_S64x128_S128x128_S64x128_1_0_0_1_n_n rfl rfl rfl rfl dot_hl0 dot_hr1 none l r p q

/-- The memory block with its leading unit axis dropped. -/
theorem pay1_apply (v0 : Vec Ideal S1x64x128 .f32) (m : Fin 64) (d : Fin 128) :
    k0_pay1 (F := Ideal) v0 (ix2 m d) = v0 (ix3 (0 : Fin 1) m d) :=
  shapeCast_1ab_ab_apply v0 shapeCasts_S1x64x128_S64x128 m d

/-- One head's affine map of the memory rows, as the body computes it (the product into the zero accumulator plus the
    bias row repeated down the 64 rows), at entry (m, j): (Σ_d v0(0,m,d) · v2(0,d,j)) + v5(0,0,j). -/
theorem affine_apply (v0 : Vec Ideal S1x64x128 .f32) (v2 : Vec Ideal S1x128x128 .f32) (v5 : Vec Ideal S1x1x128 .f32)
    (m : Fin 64) (j : Fin 128) :
    addf (F := Ideal) (φ := .f32) (matmul dot_S64x128_S128x128_S64x128_1_0_0_1_n_n none (k0_pay1 v0)
        (shapeCast S128x128 v2 shapeCasts_S1x128x128_S128x128 : FVec Ideal S128x128 .f32) (constant S64x128 .f32 0x00000000#32))
      (broadcastTo S64x128 (shapeCast S1x128 v5 shapeCasts_S1x1x128_S1x128 : FVec Ideal S1x128 .f32) broadcasts_S1x128_S64x128) (ix2 m j)
      = (∑ d : Fin 128, v0 (ix3 (0 : Fin 1) m d) * v2 (ix3 (0 : Fin 1) d j)) + v5 (ix3 (0 : Fin 1) (0 : Fin 1) j) := by
  unfold addf
  show _ + _ = _
  refine congrArg₂ (· + ·) ?_ ?_
  · refine (dot_apply _ _ m j).trans (Finset.sum_congr rfl fun d _ => ?_)
    exact congrArg₂ (· * ·) (pay1_apply v0 m d) (shapeCast_1ab_ab_apply v2 shapeCasts_S1x128x128_S128x128 d j)
  · refine (broadcastTo_1b_ab_apply _ broadcasts_S1x128_S64x128 m j).trans ?_
    exact shapeCast_1ab_ab_apply v5 shapeCasts_S1x1x128_S1x128 (0 : Fin 1) j

end Cert.Mhm.Prep
end
-- ==== Proof.LibRowOps.lean ====
/-
  Row-wise operations of a matrix at the ideal values, read at explicit coordinates.

  For an [R, C] f32 matrix: the sum along the lanes at row n is the sum over the columns of the entries of that row; the
  maximum along the lanes at row n is the fold of max, from the starting word's value, over the columns; a vector of R
  entries recast as an [R, 1] column and broadcast to [R, C] has at (n, c) the vector's entry n.  For an [R, K] × [C, K]
  product into the zero accumulator that contracts axis 1 of both operands (a product with the second operand
  transposed), entry (p, q) is Σ_k l(p, k) · r(q, k).  All hold at any extents; indices are written by coordinates.
-/
import Idealize.ShloMosaic.PureOps.Ideal.Laws
import Idealize.ShloMosaic.Lib.ValueIdx
import Idealize.ShloMosaic.Lib.Pipeline.Value

noncomputable section

open scoped BigOperators

namespace Cert.LibRow

open Idealize.ShloMosaic Idealize.ShloMosaic.ValueIdx

/-- A sum along the lanes of an [R, C] matrix, at row n, is the sum over the columns of the entries of that row. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (n : Fin R) :
    multiReduction .add [1] ⟨1, ![R]⟩ src 0x00000000#32 h hφ hacc (ix1 n) = ∑ a : Fin C, src (ix2 n a) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum along the lanes of an [R, C] matrix, at row n, is the fold of max, from the starting word's value, over
    the columns of the entries of that row. -/
theorem rowMax_apply {R C : Nat} (src : FVec Ideal ⟨2, ![R, C]⟩ .f32) (acc : BitVec 32)
    (h : Shape.Reduces (⟨2, ![R, C]⟩ : Shape) [1] ⟨1, ![R]⟩) (hφ : FKind.Formats .f32)
    (hacc : acc = FKind.maximumf.neutral .f32 hφ) (n : Fin R) :
    multiReduction .maximumf [1] ⟨1, ![R]⟩ src acc h hφ hacc (ix1 n)
      = (Finset.univ : Finset (Fin C)).fold max (Ideal.ofBits .f32 acc) (fun a => src (ix2 n a)) :=
  (Ideal.multiReduction_maximumf_single src acc h hφ hacc (ix1 n)).trans
    (congrArg (fun f => Finset.fold max (Ideal.ofBits .f32 acc) f (Finset.univ : Finset (Fin C)))
      (funext fun a => congrArg src (funext fun d => Fin.ext (by
        match d with
        | ⟨0, _⟩ => rfl
        | ⟨1, _⟩ => rfl))))

/-- A vector of R entries recast as an [R, 1] column and broadcast to [R, C] has at (n, c) the vector's entry n. -/
theorem colBroadcast_apply {R C : Nat} {α : Type} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (n : Fin R) (c : Fin C) :
    broadcastTo ⟨2, ![R, C]⟩ (shapeCast ⟨2, ![R, 1]⟩ v h1) h2 (ix2 n c) = v (ix1 n) := by
  refine (broadcastTo_apply (shapeCast ⟨2, ![R, 1]⟩ v h1) h2 (ix2 n c) (ix2 n (0 : Fin 1)) fun ax => ?_).trans ?_
  · match ax with
    | ⟨0, _⟩ =>
      show n.val = if R = 1 then 0 else n.val
      split
      · have := n.isLt; omega
      · rfl
    | ⟨1, _⟩ => rfl
  · exact shapeCast_apply v h1 _ _ (by
      rw [Shape.rowMajor_val_one, Shape.rowMajor_val_two]
      show n.val = n.val * 1 + 0
      omega)

/-- `matmul D prec l r 0 (p, q) = Σ_k l(p, k) · r(q, k)` at the ideal values, for an [R, K] × [C, K] → [R, C] product
    contracting axis 1 of both operands. -/
theorem matmul_zero_nt_ix2 {R K C : Nat} {φ₁ φ₂ : FTy} (D : DotDims ⟨2, ![R, K]⟩ ⟨2, ![C, K]⟩ ⟨2, ![R, C]⟩)
    (hlc : D.lhsContracting = [1]) (hrc : D.rhsContracting = [1]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr0 : ∀ (i : (⟨2, ![R, C]⟩ : Shape).Idx) (c : D.contr.Idx), (D.rhsIdx i c 0).val = (i 1).val)
    (prec : Option ContractPrecision)
    (l : FVec Ideal ⟨2, ![R, K]⟩ φ₁) (r : FVec Ideal ⟨2, ![C, K]⟩ φ₂) (p : Fin R) (q : Fin C) :
    matmul D prec l r (constant ⟨2, ![R, C]⟩ .f32 0x00000000#32) (ix2 p q) = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 q k :=
    funext fun a => Fin.ext (by
      match a with
      | ⟨0, _⟩ => exact hr0 _ _
      | ⟨1, _⟩ => exact (D.rhsIdx_val_of_single hrc _ _).trans hk)
  rw [el, er]

end Cert.LibRow

end
-- ==== Proof.PrepBodySoftmax.lean ====
/-
  The row softmax of a [64,128] matrix, as the first kernel's body computes it, read at an entry.

  The body takes the maximum along the lanes starting from minus infinity, keeps it as a column, repeats it across the 128
  lanes, subtracts it, exponentiates, sums the exponentials along the lanes, keeps and repeats that sum the same way, and
  divides.  At entry (m, j) that is  exp (L(m,j) - max_a L(m,a)) / Σ_j' exp (L(m,j') - max_a L(m,a)),  the maximum being
  the fold of max from -∞ over the row.
-/
import Idealize.ShloMosaic.Lib.ValueLayout
import proofs.«167654_g45337674776981_feedfinal_438_9_alg».proof.Proof.LibRowOps
import proofs.«167654_g45337674776981_feedfinal_438_9_alg».proof.Proof.Gen.KernelIdeal.Skeleton

noncomputable section

open scoped BigOperators

namespace Cert.Mhm.Prep
open Cert.KernelIdeal Cert.KernelIdeal.Gen Idealize.ShloMosaic Idealize.ShloMosaic.ValueIdx

/-- The word 0xFF800000 is minus infinity. -/
theorem negInf_bits : Ideal.ofBits .f32 0xFF800000#32 = (⊥ : EReal) := by
  simp [Ideal.ofBits, Ideal.ieee]

/-- The lane maximum of a [64,128] matrix from minus infinity, kept as a column and repeated across the 128 lanes: at
    (m, j) it is the fold of max from -∞ over row m. -/
theorem rowMaxB_apply (L : FVec Ideal S64x128 .f32) (m : Fin 64) (j : Fin 128) :
    broadcastTo S64x128 (shapeCast S64x1
        (multiReduction .maximumf [1] S64 L 0xFF800000#32 reduces_S64x128_S64 (.inl rfl) rfl : FVec Ideal S64 .f32)
        shapeCasts_S64_S64x1) broadcasts_S64x1_S64x128 (ix2 m j)
      = (Finset.univ : Finset (Fin 128)).fold max (⊥ : EReal) (fun a => L (ix2 m a)) := by
  refine (Cert.LibRow.colBroadcast_apply _ shapeCasts_S64_S64x1 broadcasts_S64x1_S64x128 m j).trans ?_
  refine (Cert.LibRow.rowMax_apply L 0xFF800000#32 reduces_S64x128_S64 (.inl rfl) rfl m).trans ?_
  rw [negInf_bits]

/-- The lane sum of a [64,128] matrix, kept as a column and repeated across the 128 lanes: at (m, j) it is the sum of
    row m. -/
theorem rowSumB_apply (X : FVec Ideal S64x128 .f32) (m : Fin 64) (j : Fin 128) :
    broadcastTo S64x128 (shapeCast S64x1
        (multiReduction .add [1] S64 X 0x00000000#32 reduces_S64x128_S64 (.inl rfl) rfl : FVec Ideal S64 .f32)
        shapeCasts_S64_S64x1) broadcasts_S64x1_S64x128 (ix2 m j)
      = ∑ a : Fin 128, X (ix2 m a) := by
  refine (Cert.LibRow.colBroadcast_apply _ shapeCasts_S64_S64x1 broadcasts_S64x1_S64x128 m j).trans ?_
  exact Cert.LibRow.rowAdd_apply X reduces_S64x128_S64 (.inl rfl) rfl m

/-- exp (entry - row maximum) of a [64,128] matrix, as the body computes it. -/
def expShift (L : FVec Ideal S64x128 .f32) : FVec Ideal S64x128 .f32 :=
  exp (subf L (broadcastTo S64x128 (shapeCast S64x1
        (multiReduction .maximumf [1] S64 L 0xFF800000#32 reduces_S64x128_S64 (.inl rfl) rfl : FVec Ideal S64 .f32)
        shapeCasts_S64_S64x1) broadcasts_S64x1_S64x128))

theorem expShift_apply (L : FVec Ideal S64x128 .f32) (m : Fin 64) (j : Fin 128) :
    expShift L (ix2 m j)
      = Ideal.exp (L (ix2 m j) - (Finset.univ : Finset (Fin 128)).fold max (⊥ : EReal) (fun a => L (ix2 m a))) := by
  unfold expShift exp subf
  show Ideal.exp (_ - _) = _
  rw [rowMaxB_apply]

/-- The row softmax of a [64,128] matrix, as the body computes it: exp (entry - row maximum) over the row's sum of
    those exponentials. -/
def softmaxRows (L : FVec Ideal S64x128 .f32) : FVec Ideal S64x128 .f32 :=
  divf (expShift L) (broadcastTo S64x128 (shapeCast S64x1
        (multiReduction .add [1] S64 (expShift L) 0x00000000#32 reduces_S64x128_S64 (.inl rfl) rfl : FVec Ideal S64 .f32)
        shapeCasts_S64_S64x1) broadcasts_S64x1_S64x128)

theorem softmaxRows_apply (L : FVec Ideal S64x128 .f32) (m : Fin 64) (j : Fin 128) :
    softmaxRows L (ix2 m j)
      = Ideal.div (Ideal.exp (L (ix2 m j) - (Finset.univ : Finset (Fin 128)).fold max (⊥ : EReal) (fun a => L (ix2 m a))))
          (∑ j' : Fin 128, Ideal.exp (L (ix2 m j') - (Finset.univ : Finset (Fin 128)).fold max (⊥ : EReal) (fun a => L (ix2 m a)))) := by
  unfold softmaxRows divf
  show Ideal.div _ _ = _
  rw [rowSumB_apply, expShift_apply]
  exact congrArg _ (Finset.sum_congr rfl fun a _ => expShift_apply L m a)

end Cert.Mhm.Prep
end
-- ==== Proof.PrepBody.lean ====
/-
  The first kernel's body read at an entry: what the key window's and the value window's buffers hold after the body,
  against the shared definitions of the memory keys and values.

  Per head h the body reads the head's [64,128] memory rows, its key weights and bias, its value weights and bias and the
  head's 128 rows of the output weights.  The key window receives the row softmax of the key logits
  (Σ_d mems h m d · Wk h d j) + bk h j;  the value window receives the value rows
  (Σ_d mems h m d · Wv h d u) + bv h u  multiplied by the head's rows of the output weights.
-/
import Idealize.ShloMosaic.Lib.ValueLayout
import proofs.«167654_g45337674776981_feedfinal_438_9_alg».proof.Proof.Spec
import proofs.«167654_g45337674776981_feedfinal_438_9_alg».proof.Proof.PrepBodyAffine
import proofs.«167654_g45337674776981_feedfinal_438_9_alg».proof.Proof.PrepBodySoftmax
import proofs.«167654_g45337674776981_feedfinal_438_9_alg».proof.Proof.Gen.KernelIdeal.Frame

noncomputable section

open scoped BigOperators

namespace Cert.Mhm.Prep
open Cert.KernelIdeal Cert.KernelIdeal.Gen Idealize.ShloMosaic Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- Every access of the body is of a whole buffer, so the key window's buffer after the body is the body's key payload
    of the input buffers themselves. -/
theorem out0_6_eq (x0 : Vec Ideal S1x64x128 .f32) (x1 : Vec Ideal S1x128x128 .f32) (x2 : Vec Ideal S1x1x128 .f32)
    (x3 : Vec Ideal S1x128x128 .f32) (x4 : Vec Ideal S128x128 .f32) (x5 : Vec Ideal S1x1x128 .f32) :
    out0_6 (F := Ideal) x0 x1 x2 x3 x4 x5 = k0_pay2 x0 x1 x2 := by
  unfold out0_6
  rw [View.canon_unit_zero hz2]
  simp only [View.ld_unit_zero (S := S1x64x128) hz3, View.ld_unit_zero (S := S1x128x128) hz3,
    View.ld_unit_zero (S := S1x1x128) hz3]

/-- ... and the value window's buffer is the body's value payload of the input buffers. -/
theorem out0_7_eq (x0 : Vec Ideal S1x64x128 .f32) (x1 : Vec Ideal S1x128x128 .f32) (x2 : Vec Ideal S1x1x128 .f32)
    (x3 : Vec Ideal S1x128x128 .f32) (x4 : Vec Ideal S128x128 .f32) (x5 : Vec Ideal S1x1x128 .f32) :
    out0_7 (F := Ideal) x0 x1 x2 x3 x4 x5 = k0_pay3 x0 x3 x5 x4 := by
  unfold out0_7
  rw [View.canon_unit_zero hz2]
  simp only [View.ld_unit_zero (S := S1x64x128) hz3, View.ld_unit_zero (S := S1x128x128) hz3,
    View.ld_unit_zero (S := S1x1x128) hz3, View.ld_unit_zero (S := S128x128) hz2]

/-- The key payload is the row softmax of the affine map of the memory rows. -/
theorem pay2_eq (v0 : Vec Ideal S1x64x128 .f32) (v2 : Vec Ideal S1x128x128 .f32) (v5 : Vec Ideal S1x1x128 .f32) :
    k0_pay2 (F := Ideal) v0 v2 v5
      = softmaxRows (addf (F := Ideal) (φ := .f32) (matmul dot_S64x128_S128x128_S64x128_1_0_0_1_n_n none (k0_pay1 v0)
          (shapeCast S128x128 v2 shapeCasts_S1x128x128_S128x128 : FVec Ideal S128x128 .f32) (constant S64x128 .f32 0x00000000#32))
        (broadcastTo S64x128 (shapeCast S1x128 v5 shapeCasts_S1x1x128_S1x128 : FVec Ideal S1x128 .f32) broadcasts_S1x128_S64x128)) :=
  rfl

/-- The value payload is the affine map of the memory rows times the [128,128] output-weight block, into the zero
    accumulator. -/
theorem pay3_eq (v0 : Vec Ideal S1x64x128 .f32) (v19 : Vec Ideal S1x128x128 .f32) (v22 : Vec Ideal S1x1x128 .f32)
    (v26 : Vec Ideal S128x128 .f32) :
    k0_pay3 (F := Ideal) v0 v19 v22 v26
      = matmul (φ₂ := .f32) dot_S64x128_S128x128_S64x128_1_0_0_1_n_n none
          (addf (F := Ideal) (φ := .f32) (matmul dot_S64x128_S128x128_S64x128_1_0_0_1_n_n none (k0_pay1 v0)
              (shapeCast S128x128 v19 shapeCasts_S1x128x128_S128x128 : FVec Ideal S128x128 .f32) (constant S64x128 .f32 0x00000000#32))
            (broadcastTo S64x128 (shapeCast S1x128 v22 shapeCasts_S1x1x128_S1x128 : FVec Ideal S1x128 .f32) broadcasts_S1x128_S64x128))
          (v26 : FVec Ideal S128x128 .f32) (constant S64x128 .f32 0x00000000#32) :=
  rfl

/-- THE KEY WINDOW: with the input buffers holding head h's memory rows, key weights and key bias, the key window's buffer
    after the body holds, at (m, j), the memory key of head h, slot m, lane j. -/
theorem out0_6_apply
    (x0 : Vec Ideal S1x64x128 .f32) (x1 : Vec Ideal S1x128x128 .f32) (x2 : Vec Ideal S1x1x128 .f32)
    (x3 : Vec Ideal S1x128x128 .f32) (x4 : Vec Ideal S128x128 .f32) (x5 : Vec Ideal S1x1x128 .f32)
    (mems : Fin 8 → Fin 64 → Fin 128 → EReal) (W : Fin 8 → Fin 128 → Fin 128 → EReal) (b : Fin 8 → Fin 128 → EReal) (h : Fin 8)
    (h0 : ∀ (m : Fin 64) (d : Fin 128), x0 (ix3 (0 : Fin 1) m d) = mems h m d)
    (h1 : ∀ (d j : Fin 128), x1 (ix3 (0 : Fin 1) d j) = W h d j)
    (h2 : ∀ j : Fin 128, x2 (ix3 (0 : Fin 1) (0 : Fin 1) j) = b h j) (m : Fin 64) (j : Fin 128) :
    out0_6 (F := Ideal) x0 x1 x2 x3 x4 x5 (ix2 m j) = Cert.Mhm.memKey mems W b h m j := by
  rw [out0_6_eq, pay2_eq]
  refine (softmaxRows_apply _ m j).trans ?_
  unfold Cert.Mhm.memKey Cert.Mhm.keyExp Cert.Mhm.logitMax Cert.Mhm.logit
  simp only [affine_apply, h0, h1, h2]

/-- THE VALUE WINDOW: with the input buffers holding head h's memory rows, value weights, value bias and the rows
    128 h .. 128 h + 127 of the output weights, the value window's buffer after the body holds, at (m, v),
    Σ_u (head h's value of slot m, lane u) · Wf (128 h + u) v. -/
theorem out0_7_apply
    (x0 : Vec Ideal S1x64x128 .f32) (x1 : Vec Ideal S1x128x128 .f32) (x2 : Vec Ideal S1x1x128 .f32)
    (x3 : Vec Ideal S1x128x128 .f32) (x4 : Vec Ideal S128x128 .f32) (x5 : Vec Ideal S1x1x128 .f32)
    (mems : Fin 8 → Fin 64 → Fin 128 → EReal) (Wv : Fin 8 → Fin 128 → Fin 128 → EReal) (bv : Fin 8 → Fin 128 → EReal)
    (Wf : Fin 1024 → Fin 128 → EReal) (h : Fin 8)
    (h0 : ∀ (m : Fin 64) (d : Fin 128), x0 (ix3 (0 : Fin 1) m d) = mems h m d)
    (h3 : ∀ (d u : Fin 128), x3 (ix3 (0 : Fin 1) d u) = Wv h d u)
    (h5 : ∀ u : Fin 128, x5 (ix3 (0 : Fin 1) (0 : Fin 1) u) = bv h u)
    (h4 : ∀ (u v : Fin 128), x4 (ix2 u v) = Wf (Cert.Mhm.feat h u) v) (m : Fin 64) (v : Fin 128) :
    out0_7 (F := Ideal) x0 x1 x2 x3 x4 x5 (ix2 m v)
      = ∑ u : Fin 128, Cert.Mhm.logit mems Wv bv h m u * Wf (Cert.Mhm.feat h u) v := by
  rw [out0_7_eq, pay3_eq]
  refine (dot_apply _ _ m v).trans (Finset.sum_congr rfl fun u _ => ?_)
  unfold Cert.Mhm.logit
  rw [affine_apply, h4, h5]
  simp only [h0, h3]

end Cert.Mhm.Prep
end
-- ==== Proof.MainBody.lean ====
/-
  The main kernel's body read at one entry of its output block.

  The body takes a block of 2048 query rows a, the 512-row key table b, the [512, 512] 0/1 mask m, the two halves of the
  512-row value table and the bias row, and computes, at entry (r, v) of the output block,
      (Σ_{c < 256} w(r, c) · g(c, v)) + (Σ_{c < 256} w(r, 256 + c) · g(256 + c, v)) + bias(v),
  where the score is s(r, c) = Σ_j a(r, j) · b(c, j), and the weight is
      w(r, c) = exp s(r, c) / Σ_j exp s(r, j) · m(j, c),
  with no maximum subtracted.  Each matrix product into the zero accumulator is read at an entry as the sum over its
  contracted axis; exp, the division and the additions act entry by entry; the two column slices of the weight matrix
  shift the column by 0 and by 256; the shape casts to the same shape are identities; the bias row is broadcast down the
  2048 rows.  The accesses to whole buffers read and leave the whole contents; the two loads of the value table read its
  rows 0..255 and 256..511.  With the blocks holding query row n at row r, the key table, the value table, the mask and
  the bias, this is the specification's fused output `kOut` at (n, v).
-/
import proofs.«167654_g45337674776981_feedfinal_438_9_alg».proof.Proof.Spec
import proofs.«167654_g45337674776981_feedfinal_438_9_alg».proof.Proof.LibRowOps
import proofs.«167654_g45337674776981_feedfinal_438_9_alg».proof.Proof.LibMatmulZero
import proofs.«167654_g45337674776981_feedfinal_438_9_alg».proof.Proof.Gen.KernelIdeal.Frame
import Idealize.ShloMosaic.Lib.ValueLayout

noncomputable section

open scoped BigOperators

namespace Cert.Mhm.Main

open Cert.KernelIdeal Cert.KernelIdeal.Gen Idealize.ShloMosaic Idealize.ShloMosaic.ValueIdx

/-- The product of a block of query rows with the transposed key table, into the zero accumulator, at entry (r, c):
    the sum over the 128 lanes of the products. -/
theorem score_apply (a : FVec Ideal S2048x128 .f32) (b : FVec Ideal S512x128 .f32) (r : Fin 2048) (c : Fin 512) :
    matmul dot_S2048x128_S512x128_S2048x512_1_1_0_0_n_n none a b (constant S2048x512 .f32 0x00000000#32) (ix2 r c)
      = ∑ j : Fin 128, a (ix2 r j) * b (ix2 c j) :=
  Cert.LibRow.matmul_zero_nt_ix2 dot_S2048x128_S512x128_S2048x512_1_1_0_0_n_n rfl rfl rfl rfl
    (fun i c => by
      unfold DotDims.lhsIdx
      rw [dif_neg (show ¬(0 : Fin _) ∈ dot_S2048x128_S512x128_S2048x512_1_1_0_0_n_n.lhsBatch by decide),
        dif_pos (show (0 : Fin _) ∈ dot_S2048x128_S512x128_S2048x512_1_1_0_0_n_n.lhsNonContracting by decide)]
      rfl)
    (fun i c => by
      unfold DotDims.rhsIdx
      rw [dif_neg (show ¬(0 : Fin _) ∈ dot_S2048x128_S512x128_S2048x512_1_1_0_0_n_n.rhsBatch by decide),
        dif_pos (show (0 : Fin _) ∈ dot_S2048x128_S512x128_S2048x512_1_1_0_0_n_n.rhsNonContracting by decide)]
      rfl)
    none a b r c

/-- The product of a [2048, 512] matrix with the [512, 512] mask, into the zero accumulator, at entry (r, c): the sum
    over the 512 rows of the mask. -/
theorem masked_apply (a : FVec Ideal S2048x512 .f32) (b : FVec Ideal S512x512 .f32) (r : Fin 2048) (c : Fin 512) :
    matmul dot_S2048x512_S512x512_S2048x512_1_0_0_1_n_n none a b (constant S2048x512 .f32 0x00000000#32) (ix2 r c)
      = ∑ j : Fin 512, a (ix2 r j) * b (ix2 j c) :=
  Cert.LibMatmulZero.matmul_zero_ix2 dot_S2048x512_S512x512_S2048x512_1_0_0_1_n_n rfl rfl rfl rfl
    (fun i c => by
      unfold DotDims.lhsIdx
      rw [dif_neg (show ¬(0 : Fin _) ∈ dot_S2048x512_S512x512_S2048x512_1_0_0_1_n_n.lhsBatch by decide),
        dif_pos (show (0 : Fin _) ∈ dot_S2048x512_S512x512_S2048x512_1_0_0_1_n_n.lhsNonContracting by decide)]
      rfl)
    (fun i c => by
      unfold DotDims.rhsIdx
      rw [dif_neg (show ¬(1 : Fin _) ∈ dot_S2048x512_S512x512_S2048x512_1_0_0_1_n_n.rhsBatch by decide),
        dif_pos (show (1 : Fin _) ∈ dot_S2048x512_S512x512_S2048x512_1_0_0_1_n_n.rhsNonContracting by decide)]
      rfl)
    none a b r c

/-- The product of 256 weights with a half of the value table, into the zero accumulator, at entry (r, v): the sum over
    the half's 256 rows. -/
theorem half_apply (a : FVec Ideal S2048x256 .f32) (b : FVec Ideal S256x128 .f32) (r : Fin 2048) (v : Fin 128) :
    matmul dot_S2048x256_S256x128_S2048x128_1_0_0_1_n_n none a b (constant S2048x128 .f32 0x00000000#32) (ix2 r v)
      = ∑ c : Fin 256, a (ix2 r c) * b (ix2 c v) :=
  Cert.LibMatmulZero.matmul_zero_ix2 dot_S2048x256_S256x128_S2048x128_1_0_0_1_n_n rfl rfl rfl rfl
    (fun i c => by
      unfold DotDims.lhsIdx
      rw [dif_neg (show ¬(0 : Fin _) ∈ dot_S2048x256_S256x128_S2048x128_1_0_0_1_n_n.lhsBatch by decide),
        dif_pos (show (0 : Fin _) ∈ dot_S2048x256_S256x128_S2048x128_1_0_0_1_n_n.lhsNonContracting by decide)]
      rfl)
    (fun i c => by
      unfold DotDims.rhsIdx
      rw [dif_neg (show ¬(1 : Fin _) ∈ dot_S2048x256_S256x128_S2048x128_1_0_0_1_n_n.rhsBatch by decide),
        dif_pos (show (1 : Fin _) ∈ dot_S2048x256_S256x128_S2048x128_1_0_0_1_n_n.rhsNonContracting by decide)]
      rfl)
    none a b r v

/-- exp of the score of row r against column c. -/
def eScore (a : FVec Ideal S2048x128 .f32) (b : FVec Ideal S512x128 .f32) (r : Fin 2048) (c : Fin 512) : EReal :=
  Ideal.exp (∑ j : Fin 128, a (ix2 r j) * b (ix2 c j))

/-- The weight of row r at column c: exp of the score over the masked sum of the row's exponentials. -/
def wgt (a : FVec Ideal S2048x128 .f32) (b : FVec Ideal S512x128 .f32) (m : FVec Ideal S512x512 .f32)
    (r : Fin 2048) (c : Fin 512) : EReal :=
  Ideal.div (eScore a b r c) (∑ j : Fin 512, eScore a b r j * m (ix2 j c))

/-- The exponential of the score matrix at entry (r, c). -/
theorem exp_score_apply (a : FVec Ideal S2048x128 .f32) (b : FVec Ideal S512x128 .f32) (r : Fin 2048) (c : Fin 512) :
    exp (matmul dot_S2048x128_S512x128_S2048x512_1_1_0_0_n_n none a b (constant S2048x512 .f32 0x00000000#32)) (ix2 r c)
      = eScore a b r c :=
  congrArg Ideal.exp (score_apply a b r c)

/-- The matrix of weights at entry (r, c): the exponentials divided, entry by entry, by their product with the mask. -/
theorem weight_apply (a : FVec Ideal S2048x128 .f32) (b : FVec Ideal S512x128 .f32) (m : FVec Ideal S512x512 .f32)
    (r : Fin 2048) (c : Fin 512) :
    divf (exp (matmul dot_S2048x128_S512x128_S2048x512_1_1_0_0_n_n none a b (constant S2048x512 .f32 0x00000000#32)))
        (matmul dot_S2048x512_S512x512_S2048x512_1_0_0_1_n_n none
          (exp (matmul dot_S2048x128_S512x128_S2048x512_1_1_0_0_n_n none a b (constant S2048x512 .f32 0x00000000#32)))
          m (constant S2048x512 .f32 0x00000000#32)) (ix2 r c)
      = wgt a b m r c := by
  refine (divf_apply _ _ _).trans ?_
  unfold wgt
  refine congr (congrArg Ideal.div (exp_score_apply a b r c)) ((masked_apply _ m r c).trans ?_)
  exact Finset.sum_congr rfl fun j _ => congrArg (· * m (ix2 j c)) (exp_score_apply a b r j)

/-- The body's arithmetic at entry (r, v): the two half contractions of the weights against the two halves of the value
    table, added, plus the bias row. -/
theorem pay_apply (v0 : FVec Ideal S2048x128 .f32) (v1 : FVec Ideal S512x128 .f32) (v5 : FVec Ideal S512x512 .f32)
    (v10 v14 : FVec Ideal S256x128 .f32) (v18 : FVec Ideal S1x128 .f32) (r : Fin 2048) (v : Fin 128) :
    k1_pay1 (F := Ideal) v0 v1 v5 v10 v14 v18 (ix2 r v)
      = ((∑ c : Fin 256, wgt v0 v1 v5 r (lo c) * v10 (ix2 c v)) + (∑ c : Fin 256, wgt v0 v1 v5 r (hi c) * v14 (ix2 c v)))
        + v18 (ix2 (0 : Fin 1) v) := by
  unfold k1_pay1
  simp only [shapeCast_self]
  refine (addf_apply _ _ _).trans ?_
  refine congr (congrArg HAdd.hAdd ((addf_apply _ _ _).trans (congr (congrArg HAdd.hAdd ?_) ?_)))
    (broadcastTo_1b_ab_apply v18 _ r v)
  · refine (half_apply _ v10 r v).trans (Finset.sum_congr rfl fun c _ => congrArg (· * v10 (ix2 c v)) ?_)
    exact (slice2_axis1_apply 0 _ _ r c (lo c) (Nat.zero_add _).symm).trans (weight_apply v0 v1 v5 r (lo c))
  · refine (half_apply _ v14 r v).trans (Finset.sum_congr rfl fun c _ => congrArg (· * v14 (ix2 c v)) ?_)
    exact (slice2_axis1_apply 256 _ _ r c (hi c) rfl).trans (weight_apply v0 v1 v5 r (hi c))

/-- The zero offsets of a whole-buffer access, as the constant function. -/
theorem hz2 : (![0, 0] : Fin 2 → Nat) = fun _ => 0 := funext fun a => by fin_cases a <;> rfl

/-- A load of rows 0..255 of the value table reads, at (c, v), the table at (c, v). -/
theorem ld_lo (x2 : Vec Ideal S512x128 .f32) (c : Fin 256) (v : Fin 128) :
    View.ld x2 r1_3 (ix2 c v) = x2 (ix2 (lo c) v) :=
  congrArg x2 (funext fun a => Fin.ext (by
    match a with
    | ⟨0, _⟩ => show 0 + 1 * c.val = c.val; omega
    | ⟨1, _⟩ => show 0 + 1 * v.val = v.val; omega))

/-- A load of rows 256..511 of the value table reads, at (c, v), the table at (256 + c, v). -/
theorem ld_hi (x2 : Vec Ideal S512x128 .f32) (c : Fin 256) (v : Fin 128) :
    View.ld x2 r1_4 (ix2 c v) = x2 (ix2 (hi c) v) :=
  congrArg x2 (funext fun a => Fin.ext (by
    match a with
    | ⟨0, _⟩ => show 256 + 1 * c.val = 256 + c.val; omega
    | ⟨1, _⟩ => show 0 + 1 * v.val = v.val; omega))

/-- The weight computed from blocks that hold the query rows, the key table and the mask is the specification's. -/
theorem wgt_eq (x0 : Vec Ideal S2048x128 .f32) (x1 : Vec Ideal S512x128 .f32) (x3 : Vec Ideal S512x512 .f32)
    (k : Fin 262144 → Fin 128 → EReal) (MK : Fin 512 → Fin 128 → EReal) (seg : Fin 512 → Fin 512 → EReal)
    (n : Fin 262144) (r : Fin 2048)
    (hk : ∀ j : Fin 128, x0 (ix2 r j) = k n j) (hMK : ∀ (c : Fin 512) (j : Fin 128), x1 (ix2 c j) = MK c j)
    (hseg : ∀ j c : Fin 512, x3 (ix2 j c) = seg j c) (c : Fin 512) :
    wgt x0 x1 x3 r c = kWeight k MK seg n c := by
  unfold wgt eScore kWeight kScore
  simp only [hk, hMK, hseg]

/-- What the output window's staging buffer holds after the body, at entry (r, v), is the fused output of the
    specification at the query row n the block's row r holds. -/
theorem out1_5_apply
    (x0 : Vec Ideal S2048x128 .f32) (x1 : Vec Ideal S512x128 .f32) (x2 : Vec Ideal S512x128 .f32)
    (x3 : Vec Ideal S512x512 .f32) (x4 : Vec Ideal S1x128 .f32)
    (k : Fin 262144 → Fin 128 → EReal) (MK G : Fin 512 → Fin 128 → EReal) (seg : Fin 512 → Fin 512 → EReal) (bf : Fin 128 → EReal)
    (n : Fin 262144) (r : Fin 2048)
    (hk : ∀ j : Fin 128, x0 (ix2 r j) = k n j) (hMK : ∀ (c : Fin 512) (j : Fin 128), x1 (ix2 c j) = MK c j)
    (hG : ∀ (c : Fin 512) (v : Fin 128), x2 (ix2 c v) = G c v) (hseg : ∀ j c : Fin 512, x3 (ix2 j c) = seg j c)
    (hbf : ∀ v : Fin 128, x4 (ix2 (0 : Fin 1) v) = bf v) (v : Fin 128) :
    out1_5 (F := Ideal) x0 x1 x2 x3 x4 (ix2 r v) = Cert.Mhm.kOut k MK G seg bf n v := by
  unfold out1_5
  rw [View.canon_unit_zero hz2]
  simp only [View.ld_unit_zero (S := S2048x128) hz2, View.ld_unit_zero (S := S512x128) hz2,
    View.ld_unit_zero (S := S512x512) hz2, View.ld_unit_zero (S := S1x128) hz2]
  refine (pay_apply x0 x1 x3 _ _ x4 r v).trans ?_
  unfold Cert.Mhm.kOut
  refine congr (congrArg HAdd.hAdd (congr (congrArg HAdd.hAdd ?_) ?_)) (hbf v)
  · refine Finset.sum_congr rfl fun c _ => ?_
    rw [ld_lo, hG, wgt_eq x0 x1 x3 k MK seg n r hk hMK hseg]
  · refine Finset.sum_congr rfl fun c _ => ?_
    rw [ld_hi, hG, wgt_eq x0 x1 x3 k MK seg n r hk hMK hseg]

end Cert.Mhm.Main

end
-- ==== Proof.HostGlue.lean ====
/-
  What the arrays hold when each of the two kernel regions is entered — the parts that are reshapes or untouched buffers.

  The program is: two host reshapes (bk and bv, [8,128] viewed as [8,1,128]), the first region (which prepares the key
  table and the value table), a stretch of host operations that builds the 0/1 "same group of 64" mask and views
  bf [128] as [1,128], and the second region.  No host operation writes an argument, and the second stretch writes
  neither of the first region's two outputs; so at each region's entry
    * an argument holds what it held at launch,
    * the reshaped biases hold the biases, entry for entry,
    * the two tables hold what the first region left.
-/
import proofs.«167654_g45337674776981_feedfinal_438_9_alg».proof.Proof.Spec
import proofs.«167654_g45337674776981_feedfinal_438_9_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.Mhm.Glue

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-! ## The first region's inputs -/

/-- No operation of the first host stretch writes an argument: at the first region's entry it holds its launch contents. -/
theorem V1_main_arg1 : V1 (F := Ideal) m ρ c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
theorem V1_main_arg2 : V1 (F := Ideal) m ρ c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
theorem V1_main_arg4 : V1 (F := Ideal) m ρ c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
theorem V1_main_arg6 : V1 (F := Ideal) m ρ c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- An [8,128] array viewed as [8,1,128] reads, at (h, 0, j), the array at (h, j). -/
theorem shapeCast_8x128_8x1x128_apply {α : Type} (x : S8x128.Idx → α) (hc : S8x128.ShapeCasts S8x1x128)
    (h : Fin 8) (j : Fin 128) : shapeCast S8x1x128 x hc (ix3 h (0 : Fin 1) j) = x (ix2 h j) :=
  shapeCast_apply x hc _ _ (by
    rw [Shape.rowMajor_val_two, Shape.rowMajor_val_three]
    show h.val * 128 + j.val = (h.val * 1 + 0) * 128 + j.val
    omega)

/-- The key bias as the first region finds it: bk at (h, j). -/
theorem bk_read (h : Fin 8) (j : Fin 128) :
    (V1 (F := Ideal) m ρ c main_call0_v0 : S8x1x128.Idx → EReal) (ix3 h (0 : Fin 1) j)
      = (m ((c : Thread nD τ).loc main_arg3) : S8x128.Idx → EReal) (ix2 h j) := by
  have e : (V1 (F := Ideal) m ρ c main_call0_v0 : S8x1x128.Idx → EReal)
      = shapeCast S8x1x128 (m ((c : Thread nD τ).loc main_arg3) : S8x128.Idx → EReal) shapeCasts_S8x128_S8x1x128 := by
    show StableHlo.after hostOps0 _ (Proc.devRef .tc main_call0_v0) = _
    after_results
    rfl
  rw [e]
  exact shapeCast_8x128_8x1x128_apply _ _ h j

/-- The value bias as the first region finds it: bv at (h, u). -/
theorem bv_read (h : Fin 8) (u : Fin 128) :
    (V1 (F := Ideal) m ρ c main_call0_v1 : S8x1x128.Idx → EReal) (ix3 h (0 : Fin 1) u)
      = (m ((c : Thread nD τ).loc main_arg5) : S8x128.Idx → EReal) (ix2 h u) := by
  have e : (V1 (F := Ideal) m ρ c main_call0_v1 : S8x1x128.Idx → EReal)
      = shapeCast S8x1x128 (m ((c : Thread nD τ).loc main_arg5) : S8x128.Idx → EReal) shapeCasts_S8x128_S8x1x128 := by
    show StableHlo.after hostOps0 _ (Proc.devRef .tc main_call0_v1) = _
    after_results
    rfl
  rw [e]
  exact shapeCast_8x128_8x1x128_apply _ _ h u

/-! ## The second region's inputs -/

/-- The query rows at the second region's entry are the launch contents: neither host stretch writes them and the first
    region does not touch them. -/
theorem V3_main_arg0 : V3 (F := Ideal) m ρ c main_arg0 = m ((c : Thread nD τ).loc main_arg0) :=
  calc W3 (F := Ideal) m ρ c (Proc.devRef .tc main_arg0)
    _ = W2 m ρ c (Proc.devRef .tc main_arg0) := StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
    _ = m ((c : Thread nD τ).loc main_arg0) := rfl

/-- The second host stretch writes neither of the first region's outputs. -/
theorem V3_keys : V3 (F := Ideal) m ρ c main_call0_v2_0 = V2 m ρ c main_call0_v2_0 :=
  StableHlo.after_of_forall_not_mem (b := Proc.devRef .tc main_call0_v2_0) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
theorem V3_vals : V3 (F := Ideal) m ρ c main_call0_v2_1 = V2 m ρ c main_call0_v2_1 :=
  StableHlo.after_of_forall_not_mem (b := Proc.devRef .tc main_call0_v2_1) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The output bias's argument, when the first region has run, still holds its launch contents. -/
theorem W2_main_arg7 : W2 (F := Ideal) m ρ c (Proc.devRef .tc main_arg7) = m ((c : Thread nD τ).loc main_arg7) :=
  calc W2 (F := Ideal) m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
    _ = m ((c : Thread nD τ).loc main_arg7) := rfl

/-- A [128] vector viewed as [1,128] reads, at (0, v), the vector at v. -/
theorem shapeCast_128_1x128_apply {α : Type} (x : S128.Idx → α) (hc : S128.ShapeCasts S1x128) (v : Fin 128) :
    shapeCast S1x128 x hc (ix2 (0 : Fin 1) v) = x (ix1 v) :=
  shapeCast_apply x hc _ _ (by
    rw [Shape.rowMajor_val_two, Shape.rowMajor_val_one]
    show v.val = 0 * 128 + v.val
    omega)

/-- The output bias as the second region finds it: bf at v. -/
theorem bf_read (v : Fin 128) :
    (V3 (F := Ideal) m ρ c main_call0_v13 : S1x128.Idx → EReal) (ix2 (0 : Fin 1) v)
      = (m ((c : Thread nD τ).loc main_arg7) : S128.Idx → EReal) (ix1 v) := by
  have e : (V3 (F := Ideal) m ρ c main_call0_v13 : S1x128.Idx → EReal)
      = shapeCast S1x128 (W2 (F := Ideal) m ρ c (Proc.devRef .tc main_arg7) : S128.Idx → EReal) shapeCasts_S128_S1x128 := by
    show StableHlo.after hostOps1 _ (Proc.devRef .tc main_call0_v13) = _
    after_results_simp
    rfl
  rw [e, W2_main_arg7]
  exact shapeCast_128_1x128_apply _ _ v

end Cert.Mhm.Glue
end
-- ==== Proof.HostGlueFloorDiv.lean ====
/-
  jnp's floor_divide of a small non-negative 32-bit word by 64, as the host program computes it:

      q = x / 64 (toward zero);  r = x rem 64;
      if (sign x ≠ sign 64) and (r ≠ 0) then q - 1 else q.

  For a word x = n with n < 512 both signs agree or x = 0 (and then r = 0), so the correction never applies, and the
  truncated signed quotient of two non-negative words is the unsigned quotient: the result is the word of n / 64.
-/
import Idealize.ShloMosaic.PureOps.Ideal
import Idealize.ShloMosaic.Lib.Affine
import Idealize.ShloMosaic.Lib.ValueIdx

noncomputable section

namespace Cert.Mhm.Glue

open Idealize.ShloMosaic

/-- The sign of a 32-bit word: 0, -1 or 1. -/
def sgn (x : BitVec 32) : BitVec 32 := if x = 0 then 0 else if x.msb then -1 else 1

/-- jnp's floor_divide of the word x by 64, in the host program's operations. -/
def floorDiv64 (x : BitVec 32) : BitVec 32 :=
  Scalar.select
    (IntOp.andi (IntOp.cmpi .ne (sgn x) (sgn 64#32)) (IntOp.cmpi .ne (IntOp.remsi .host x 64#32) 0#32))
    (IntOp.subi (IntOp.divsi .host x 64#32) 1#32)
    (IntOp.divsi .host x 64#32)

theorem andi_zero_left (d : BitVec 1) : IntOp.andi 0#1 d = 0#1 := by revert d; decide

/-- For n < 512 the floor_divide of the word n by 64 is the word n / 64. -/
theorem floorDiv64_ofNat (n : Nat) (hn : n < 512) : floorDiv64 (BitVec.ofNat 32 n) = BitVec.ofNat 32 (n / 64) := by
  have hx : (BitVec.ofNat 32 n).toNat = n := by rw [BitVec.toNat_ofNat]; omega
  have hm : (BitVec.ofNat 32 n).msb = false := by rw [BitVec.msb_eq_false_iff_two_mul_lt, hx]; omega
  have h64 : (0 : Int) < (64#32 : BitVec 32).toInt := by decide
  have hdiv : IntOp.divsi .host (BitVec.ofNat 32 n) 64#32 = BitVec.ofNat 32 (n / 64) := by
    unfold IntOp.divsi
    rw [if_neg (IntOp.not_corner_of_pos h64), BitVec.sdiv_eq, hm, show (64#32 : BitVec 32).msb = false from by decide]
    apply BitVec.eq_of_toNat_eq
    show (BitVec.ofNat 32 n / 64#32).toNat = _
    rw [BitVec.toNat_udiv, hx, show (64#32 : BitVec 32).toNat = 64 from rfl, BitVec.toNat_ofNat]
    omega
  have hcond : IntOp.andi (IntOp.cmpi .ne (sgn (BitVec.ofNat 32 n)) (sgn 64#32))
      (IntOp.cmpi .ne (IntOp.remsi .host (BitVec.ofNat 32 n) 64#32) 0#32) = 0#1 := by
    by_cases h0 : n = 0
    · subst h0; decide
    · have hne : BitVec.ofNat 32 n ≠ 0 := fun e => h0 (by rw [← hx, e]; rfl)
      have hs : sgn (BitVec.ofNat 32 n) = 1 := by unfold sgn; rw [if_neg hne, hm]; rfl
      rw [hs, show IntOp.cmpi .ne (1 : BitVec 32) (sgn 64#32) = 0#1 from by decide]
      exact andi_zero_left _
  unfold floorDiv64
  rw [hcond, ValueIdx.select_zero, hdiv]

end Cert.Mhm.Glue
end
-- ==== Proof.HostGlueMask.lean ====
/-
  The 0/1 mask "rows j and columns c in the same group of 64", as the second region finds it.

  The host program builds it from two index vectors 0 … 511 — one laid down a column [512,1], one along a row [1,512] —,
  takes jnp's floor_divide by 64 of each (quotient toward zero, less one when the signs differ and the remainder is not
  zero), repeats the column along 512 columns and the row along 512 rows, compares the two for equality and converts the
  bit to a real.  Entry (j, c) is therefore the comparison of the words j / 64 and c / 64: 1 when they agree, else 0.
-/
import proofs.«167654_g45337674776981_feedfinal_438_9_alg».proof.Proof.Spec
import proofs.«167654_g45337674776981_feedfinal_438_9_alg».proof.Proof.Gen.KernelIdeal.Frame
import proofs.«167654_g45337674776981_feedfinal_438_9_alg».proof.Proof.HostGlueFloorDiv
import Idealize.ShloMosaic.Lib.StableHlo.Run
import Idealize.ShloMosaic.Lib.ValueIdx
import Idealize.ShloMosaic.Lib.IdealHost
import Idealize.ShloMosaic.Lib.ValueLayout
import Idealize.ShloMosaic.Lib.Pipeline.Value
import Idealize.ShloMosaic.PureOps.Ideal.Laws

noncomputable section

namespace Cert.Mhm.Glue

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- jnp's floor_divide of an integer array x by a scalar k, in the host program's operations, over any shape s whose
    scalars are broadcast by bc. -/
def floorDivV {s : Shape} (bc : IVec S_ 32 → IVec s 32) (x : IVec s 32) (k : IVec S_ 32) : IVec s 32 :=
  select
    (andi (cmpi .ne (signi x) (bc (signi (id k))))
      (cmpi .ne (Host.remsi x (bc (id k))) (bc (constantI S_ 32 0#32))))
    (subi (Host.divsi x (bc (id k))) (bc (constantI S_ 32 1#32)))
    (Host.divsi x (bc (id k)))

/-- The group of each row index, as a column [512,1]. -/
def rowGroup : IVec S512x1 32 :=
  floorDivV (broadcastInDim S512x1 ![] bcast_S_S512x1)
    (broadcastInDim S512x1 ![0] bcast_S512_S512x1_0 (iotaInDim S512 32 0)) (constantI S_ 32 64#32)

/-- The group of each column index, as a row [1,512]. -/
def colGroup : IVec S1x512 32 :=
  floorDivV (broadcastInDim S1x512 ![] bcast_S_S1x512)
    (broadcastInDim S1x512 ![1] bcast_S512_S1x512_1 (iotaInDim S512 32 0)) (constantI S_ 32 64#32)

/-- The mask as the host program computes it: 1 where the row's group is the column's. -/
def maskTerm : FVec Ideal S512x512 .f32 :=
  uitofp .f32 (cmpi .eq (broadcastInDim S512x512 ![0, 1] bcast_S512x1_S512x512_0_1 rowGroup)
    (broadcastInDim S512x512 ![0, 1] bcast_S1x512_S512x512_0_1 colGroup))

/-! ## Broadcasts read at an index -/

/-- A [512] vector laid down a column [512,1] reads, at (j, 0), the vector at j. -/
theorem bcast_512_512x1_apply {α : Type} (x : S512.Idx → α) (j : Fin 512) :
    broadcastInDim S512x1 ![0] bcast_S512_S512x1_0 x (ix2 j (0 : Fin 1)) = x (ix1 j) :=
  broadcastInDim_apply ![0] bcast_S512_S512x1_0 x (ix2 j (0 : Fin 1)) (ix1 j) (fun a => by
    match a with
    | ⟨0, _⟩ => rfl)

/-- A [512] vector laid along a row [1,512] reads, at (0, c), the vector at c. -/
theorem bcast_512_1x512_apply {α : Type} (x : S512.Idx → α) (c' : Fin 512) :
    broadcastInDim S1x512 ![1] bcast_S512_S1x512_1 x (ix2 (0 : Fin 1) c') = x (ix1 c') :=
  broadcastInDim_apply ![1] bcast_S512_S1x512_1 x (ix2 (0 : Fin 1) c') (ix1 c') (fun a => by
    match a with
    | ⟨0, _⟩ => rfl)

/-- A column [512,1] repeated along 512 columns reads, at (j, c), the column at (j, 0). -/
theorem bcast_512x1_512x512_apply {α : Type} (x : S512x1.Idx → α) (j c' : Fin 512) :
    broadcastInDim S512x512 ![0, 1] bcast_S512x1_S512x512_0_1 x (ix2 j c') = x (ix2 j (0 : Fin 1)) :=
  broadcastInDim_apply ![0, 1] bcast_S512x1_S512x512_0_1 x (ix2 j c') (ix2 j (0 : Fin 1)) (fun a => by
    match a with
    | ⟨0, _⟩ => rfl
    | ⟨1, _⟩ => rfl)

/-- A row [1,512] repeated along 512 rows reads, at (j, c), the row at (0, c). -/
theorem bcast_1x512_512x512_apply {α : Type} (x : S1x512.Idx → α) (j c' : Fin 512) :
    broadcastInDim S512x512 ![0, 1] bcast_S1x512_S512x512_0_1 x (ix2 j c') = x (ix2 (0 : Fin 1) c') :=
  broadcastInDim_apply ![0, 1] bcast_S1x512_S512x512_0_1 x (ix2 j c') (ix2 (0 : Fin 1) c') (fun a => by
    match a with
    | ⟨0, _⟩ => rfl
    | ⟨1, _⟩ => rfl)

/-! ## The mask's term read at an index -/

/-- A floor_divide by 64 at an index is the scalar floor_divide of the entry there, when a broadcast scalar reads the
    scalar. -/
theorem floorDivV_apply {s : Shape} (bc : IVec S_ 32 → IVec s 32) (hbc : ∀ (k : IVec S_ 32) (i : s.Idx), bc k i = k ix0)
    (x : IVec s 32) (i : s.Idx) : floorDivV bc x (constantI S_ 32 64#32) i = floorDiv64 (x i) := by
  show Scalar.select
      (IntOp.andi (IntOp.cmpi .ne (sgn (x i)) (bc (signi (id (constantI S_ 32 64#32))) i))
        (IntOp.cmpi .ne (IntOp.remsi .host (x i) (bc (id (constantI S_ 32 64#32)) i)) (bc (constantI S_ 32 0#32) i)))
      (IntOp.subi (IntOp.divsi .host (x i) (bc (id (constantI S_ 32 64#32)) i)) (bc (constantI S_ 32 1#32) i))
      (IntOp.divsi .host (x i) (bc (id (constantI S_ 32 64#32)) i)) = _
  simp only [hbc]
  rfl

/-- Row j's group is the word j / 64. -/
theorem rowGroup_apply (j : Fin 512) : rowGroup (ix2 j (0 : Fin 1)) = BitVec.ofNat 32 (j.val / 64) := by
  unfold rowGroup
  rw [floorDivV_apply _ (fun k i => broadcastInDim_scalar_apply bcast_S_S512x1 k i), bcast_512_512x1_apply]
  exact floorDiv64_ofNat j.val j.isLt

/-- Column c's group is the word c / 64. -/
theorem colGroup_apply (c' : Fin 512) : colGroup (ix2 (0 : Fin 1) c') = BitVec.ofNat 32 (c'.val / 64) := by
  unfold colGroup
  rw [floorDivV_apply _ (fun k i => broadcastInDim_scalar_apply bcast_S_S1x512 k i), bcast_512_1x512_apply]
  exact floorDiv64_ofNat c'.val c'.isLt

/-- The comparison of two small words, converted: 1 when the numbers agree, else 0. -/
theorem eqWord_toReal (a b : Nat) (ha : a < 8) (hb : b < 8) :
    (((IntOp.cmpi .eq (BitVec.ofNat 32 a) (BitVec.ofNat 32 b)).toNat : ℝ) : EReal) = if a = b then 1 else 0 := by
  by_cases h : a = b
  · rw [if_pos h, h, IntOp.cmpi_eq.mpr rfl]
    show (((1 : ℕ) : ℝ) : EReal) = 1
    rw [Nat.cast_one, EReal.coe_one]
  · have hne : ¬ IntOp.cmpi .eq (BitVec.ofNat 32 a) (BitVec.ofNat 32 b) = 1#1 := fun e =>
      h (by
        have := congrArg BitVec.toNat (IntOp.cmpi_eq.mp e)
        rw [BitVec.toNat_ofNat, BitVec.toNat_ofNat] at this
        omega)
    rw [if_neg h, eq_zero_of_ne_one hne]
    show (((0 : ℕ) : ℝ) : EReal) = 0
    rw [Nat.cast_zero, EReal.coe_zero]

/-- The conversion of a compared pair of integer arrays at an index. -/
theorem uitofp_cmpi_eq_apply (A B : IVec S512x512 32) (i : S512x512.Idx) :
    (uitofp .f32 (cmpi .eq A B) : FVec Ideal S512x512 .f32) i = (((IntOp.cmpi .eq (A i) (B i)).toNat : ℝ) : EReal) := rfl

/-- The mask's term at (j, c): 1 when j and c lie in the same group of 64, else 0. -/
theorem maskTerm_apply (j c' : Fin 512) : maskTerm (ix2 j c') = Cert.Mhm.segMask j c' := by
  unfold maskTerm
  rw [uitofp_cmpi_eq_apply, bcast_512x1_512x512_apply, bcast_1x512_512x512_apply, rowGroup_apply, colGroup_apply]
  exact eqWord_toReal _ _ (by have := j.isLt; omega) (by have := c'.isLt; omega)

/-! ## The mask as the second region finds it -/

set_option maxHeartbeats 1000000 in
/-- The second region's mask array holds the mask's term. -/
theorem mask_eq : (V3 (F := Ideal) m ρ c main_call0_v12 : S512x512.Idx → EReal) = maskTerm := by
  show StableHlo.after (hostOps1 (F := Ideal)) (W2 (F := Ideal) m ρ c) (Proc.devRef .tc main_call0_v12) = _
  after_results_simp
  rfl

/-- The mask as the second region finds it: 1 when j and c lie in the same group of 64, else 0. -/
theorem seg_read (j c' : Fin 512) :
    (V3 (F := Ideal) m ρ c main_call0_v12 : S512x512.Idx → EReal) (ix2 j c') = Cert.Mhm.segMask j c' := by
  rw [mask_eq]
  exact maskTerm_apply j c'

end Cert.Mhm.Glue
end
-- ==== Proof.KernelValue.lean ====
/-
  The idealized kernel program's result array as ONE function of its eight argument arrays.

  The fold of the program's four segments is read backwards from the result array.  The second launch leaves in the
  result array the fused arrangement's output of the arrays it finds (the queries, the key table, the value table, the
  mask, the bias row).  Of those, the queries are the argument array (no segment writes an argument); the key table and
  the value table are what the first launch left (the host operations between the launches write neither), which are
  the tables of the memory bank, the weights and the two bias arrays recast to [8, 1, 128]; the mask is the 0/1
  "same group of 64 columns" matrix the host operations build from two iotas; the bias row is the bias vector recast
  to [1, 128].  Put together, entry (n, v) of the result is `kernelOut` of the arguments at (n, v).
-/
import proofs.«167654_g45337674776981_feedfinal_438_9_alg».proof.Proof.KernelRun
import proofs.«167654_g45337674776981_feedfinal_438_9_alg».proof.Proof.Fused
import proofs.«167654_g45337674776981_feedfinal_438_9_alg».proof.Proof.PrepValue
import proofs.«167654_g45337674776981_feedfinal_438_9_alg».proof.Proof.MainValue
import proofs.«167654_g45337674776981_feedfinal_438_9_alg».proof.Proof.PrepBody
import proofs.«167654_g45337674776981_feedfinal_438_9_alg».proof.Proof.MainBody
import proofs.«167654_g45337674776981_feedfinal_438_9_alg».proof.Proof.HostGlue
import proofs.«167654_g45337674776981_feedfinal_438_9_alg».proof.Proof.HostGlueMask

set_option maxRecDepth 16384

noncomputable section

open Cert.KernelIdeal Cert.KernelIdeal.Gen
open Idealize.ShloMosaic Idealize.ShloMosaic.TcCoe Idealize.ShloMosaic.ValueIdx
open Idealize.SL Idealize.SL.Sem

namespace Cert.Mhm

namespace Kernel

theorem keyBody : R0.KeyBody := fun x0 x1 x2 x3 x4 x5 mems W b h h0 h1 h2 m j =>
  Prep.out0_6_apply x0 x1 x2 x3 x4 x5 mems W b h h0 h1 h2 m j
theorem valBody : R0.ValBody := fun x0 x1 x2 x3 x4 x5 mems Wv bv Wf h h0 h3 h5 h4 m v =>
  Prep.out0_7_apply x0 x1 x2 x3 x4 x5 mems Wv bv Wf h h0 h3 h5 h4 m v
theorem mainBody : R1.MainBody := fun x0 x1 x2 x3 x4 k MK G seg bf n r hk hMK hG hseg hbf v =>
  Main.out1_5_apply x0 x1 x2 x3 x4 k MK G seg bf n r hk hMK hG hseg hbf v

variable (m : (ℓ : Loc nD τ sig) → Buf (Elt Ideal) ℓ) (ρ : Dev nD → PrngReg) (c : Dev nD)

/-- The arrays the first launch finds are the arguments (the two biases recast). -/
theorem memsOf_eq : R0.memsOf (V1 m ρ) c = fun h p d => (m ((c : Thread nD τ).loc main_arg1)) (ix3 h p d) :=
  funext fun h => funext fun p => funext fun d => congrFun (Glue.V1_main_arg1 m ρ c) (ix3 h p d)
theorem wkOf_eq : R0.wkOf (V1 m ρ) c = fun h d j => (m ((c : Thread nD τ).loc main_arg2)) (ix3 h d j) :=
  funext fun h => funext fun d => funext fun j => congrFun (Glue.V1_main_arg2 m ρ c) (ix3 h d j)
theorem wvOf_eq : R0.wvOf (V1 m ρ) c = fun h d u => (m ((c : Thread nD τ).loc main_arg4)) (ix3 h d u) :=
  funext fun h => funext fun d => funext fun u => congrFun (Glue.V1_main_arg4 m ρ c) (ix3 h d u)
theorem wfOf_eq : R0.wfOf (V1 m ρ) c = fun f v => (m ((c : Thread nD τ).loc main_arg6)) (ix2 f v) :=
  funext fun f => funext fun v => congrFun (Glue.V1_main_arg6 m ρ c) (ix2 f v)
theorem bkOf_eq : R0.bkOf (V1 m ρ) c = fun h j => (m ((c : Thread nD τ).loc main_arg3)) (ix2 h j) :=
  funext fun h => funext fun j => Glue.bk_read m ρ c h j
theorem bvOf_eq : R0.bvOf (V1 m ρ) c = fun h u => (m ((c : Thread nD τ).loc main_arg5)) (ix2 h u) :=
  funext fun h => funext fun u => Glue.bv_read m ρ c h u

/-- The key table the second launch finds is the one the first launch left. -/
theorem mkOf_eq : R1.mkOf (V3 m ρ) c = mkFlat (R0.memsOf (V1 m ρ) c) (R0.wkOf (V1 m ρ) c) (R0.bkOf (V1 m ρ) c) := by
  funext x j
  have e := (W2_arr m ρ c 6).trans (R0.final6 (V1 m ρ) c keyBody)
  exact (congrFun (Glue.V3_keys m ρ c) (ix2 x j)).trans (congrFun e (ix2 x j))

/-- The value table the second launch finds is the one the first launch left. -/
theorem gOf_eq : R1.gOf (V3 m ρ) c
    = gFlat (R0.memsOf (V1 m ρ) c) (R0.wvOf (V1 m ρ) c) (R0.bvOf (V1 m ρ) c) (R0.wfOf (V1 m ρ) c) := by
  funext x v
  have e := (W2_arr m ρ c 7).trans (R0.final7 (V1 m ρ) c valBody)
  exact (congrFun (Glue.V3_vals m ρ c) (ix2 x v)).trans (congrFun e (ix2 x v))

theorem kOf_eq : R1.kOf (V3 m ρ) c = fun n j => (m ((c : Thread nD τ).loc main_arg0)) (ix2 n j) :=
  funext fun n => funext fun j => congrFun (Glue.V3_main_arg0 m ρ c) (ix2 n j)
theorem segOf_eq : R1.segOf (V3 m ρ) c = segMask :=
  funext fun j => funext fun x => Glue.seg_read m ρ c j x
theorem bfOf_eq : R1.bfOf (V3 m ρ) c = fun v => (m ((c : Thread nD τ).loc main_arg7)) (ix1 v) :=
  funext fun v => Glue.bf_read m ρ c v

/-- The result array at the last boundary is the fused output of the eight arguments. -/
theorem result_eq : W4 (F := Ideal) m ρ c (Proc.devRef .tc main_v0)
    = fused (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine ((W4_arr m ρ c 5).trans (R1.final5 (V3 m ρ) c mainBody)).trans ?_
  funext i
  show kOut (R1.kOf (V3 m ρ) c) (R1.mkOf (V3 m ρ) c) (R1.gOf (V3 m ρ) c) (R1.segOf (V3 m ρ) c) (R1.bfOf (V3 m ρ) c) (i 0) (i 1) = _
  rw [kOf_eq, mkOf_eq, gOf_eq, segOf_eq, bfOf_eq, memsOf_eq, wkOf_eq, bkOf_eq, wvOf_eq, bvOf_eq, wfOf_eq]
  rfl

end Kernel
end Cert.Mhm
end
-- ==== Proof.RefValueA.lean ====
/-
  The head-by-head arrangement read at an index, part one: the memory keys and values.

  Each stage of the reference program that depends only on the memory bank and the key / value weights is identified,
  at explicit coordinates (h, m, j), with the corresponding function of the specification: the affine logits, the row
  maximum, the shifted exponentials, the row softmax (the memory keys) and the memory values.
-/
import proofs.«167654_g45337674776981_feedfinal_438_9_alg».proof.Proof.Spec
import proofs.«167654_g45337674776981_feedfinal_438_9_alg».proof.Proof.Gen.ReferenceIdeal.Read

noncomputable section

open scoped BigOperators

namespace Cert.Mhm.Ref

open Cert.ReferenceIdeal Cert.ReferenceIdeal.Gen Cert.ReferenceIdeal.Read Idealize.ShloMosaic Idealize.ShloMosaic.ValueIdx

/-- A rank-3 array as a function of its three coordinates. -/
abbrev fn3 {a b c : Nat} (x : (⟨⟨3, ![a, b, c]⟩, .f32⟩ : BufTy).Contents (Elt Ideal)) : Fin a → Fin b → Fin c → EReal :=
  fun p q r => x (ix3 p q r)
/-- A rank-2 array as a function of its two coordinates. -/
abbrev fn2 {a b : Nat} (x : (⟨⟨2, ![a, b]⟩, .f32⟩ : BufTy).Contents (Elt Ideal)) : Fin a → Fin b → EReal :=
  fun p q => x (ix2 p q)
/-- A rank-1 array as a function of its coordinate. -/
abbrev fn1 {a : Nat} (x : (⟨⟨1, ![a]⟩, .f32⟩ : BufTy).Contents (Elt Ideal)) : Fin a → EReal :=
  fun p => x (ix1 p)

section Keys
variable (x1 : (⟨S8x64x128, .f32⟩ : BufTy).Contents (Elt Ideal)) (x2 : (⟨S8x128x128, .f32⟩ : BufTy).Contents (Elt Ideal))
  (x3 : (⟨S8x128, .f32⟩ : BufTy).Contents (Elt Ideal))

/-- The affine stage is the logit: the contraction over d plus the bias, the bias broadcast along the slots. -/
theorem v3_eq (h : Fin 8) (m : Fin 64) (j : Fin 128) :
    val_main_v3 (F := Ideal) x1 x2 x3 (ix3 h m j) = logit (fn3 x1) (fn3 x2) (fn2 x3) h m j := by
  rw [val_main_v3_apply, val_main_v0_apply, val_main_v2_apply, val_main_v1_apply]
  have e1 : ∀ k : Fin 128, lidx_main_v0 (ix3 h m j) k = ix3 h m k := fun k => funext fun a => Fin.ext (by
    match a with | ⟨0, _⟩ => rfl | ⟨1, _⟩ => rfl | ⟨2, _⟩ => rfl)
  have e2 : ∀ k : Fin 128, ridx_main_v0 (ix3 h m j) k = ix3 h k j := fun k => funext fun a => Fin.ext (by
    match a with | ⟨0, _⟩ => rfl | ⟨1, _⟩ => rfl | ⟨2, _⟩ => rfl)
  have e3 : idx_main_v1 (idx_main_v2 (ix3 h m j)) = ix2 h j := funext fun a => Fin.ext (by
    match a with | ⟨0, _⟩ => rfl | ⟨1, _⟩ => rfl)
  simp only [e1, e2, e3, Ideal.addf_def]
  rfl

/-! ## The host's maximum over the last axis -/

/-- The reduced index (p, q) with coordinate k put back on the last axis is (p, q, k). -/
theorem lift_last3 {a b c : Nat} (hR : (⟨3, ![a, b, c]⟩ : Shape).Reduces [2] (⟨2, ![a, b]⟩ : Shape)) (p : Fin a) (q : Fin b)
    (k : Fin ((⟨3, ![a, b, c]⟩ : Shape).size 2)) : hR.lift (ix2 p q) k = ix3 p q (⟨k.val, k.isLt⟩ : Fin c) := by
  funext d; apply Fin.ext
  match d with | ⟨0, _⟩ => rfl | ⟨1, _⟩ => rfl | ⟨2, _⟩ => rfl

/-- The bit pattern of -∞ is the bottom element. -/
theorem ofBits_neg_inf : Ideal.ofBits .f32 0xFF800000#32 = (⊥ : EReal) := by simp [Ideal.ofBits, Ideal.ieee]

/-- From -∞ the host's reduce with a maximum body over the last of three axes is, at (p, q), the fold of max from ⊥
    over the last coordinate. -/
theorem hostMax_last3 {a b c : Nat} (x : FVec Ideal (⟨3, ![a, b, c]⟩ : Shape) .f32)
    (h' : (⟨3, ![a, b, c]⟩ : Shape).ReducesTo [2] (⟨2, ![a, b]⟩ : Shape))
    (hR : (⟨3, ![a, b, c]⟩ : Shape).Reduces [2] (⟨2, ![a, b]⟩ : Shape)) (hu : 0 < (⟨0, ![]⟩ : Shape).numel)
    (p : Fin a) (q : Fin b) :
    Host.reduce FloatOps.maximumf x (constant (⟨0, ![]⟩ : Shape) .f32 0xFF800000#32) h' hu (ix2 p q)
      = (Finset.univ : Finset (Fin c)).fold max (⊥ : EReal) (fun r => x (ix3 p q r)) := by
  rw [Host.reduce_eq_fold_single FloatOps.maximumf x _ h' hR hu]
  have hf : (x ∘ hR.lift (ix2 p q)) = fun r : Fin c => x (ix3 p q r) := funext fun k => congrArg x (lift_last3 hR p q k)
  have hi : (constant (F := Ideal) (⟨0, ![]⟩ : Shape) .f32 0xFF800000#32) (Shape.Idx.first hu) = (⊥ : EReal) := ofBits_neg_inf
  rw [hi]
  exact congrArg (fun f => Finset.fold max (⊥ : EReal) f (Finset.univ : Finset (Fin c))) hf

/-- The row maximum: the reduce from -∞, and the further maximum with a broadcast -∞ that changes nothing. -/
theorem v6_eq (h : Fin 8) (m : Fin 64) :
    val_main_v6 (F := Ideal) x1 x2 x3 (ix2 h m) = logitMax (fn3 x1) (fn3 x2) (fn2 x3) h m := by
  rw [val_main_v6_apply, val_main_v5_apply, val_main_cst_0_apply]
  unfold val_main_v4 val_main_cst
  rw [hostMax_last3 _ reducesTo_S8x64x128_S8x64_d2 (by decide) h_S_ h m]
  simp only [Ideal.maximumf_def, Ideal.ofBits_def, ofBits_neg_inf, bot_sup_eq, max_bot_left]
  unfold logitMax
  exact congrArg (fun f => Finset.fold max (⊥ : EReal) f (Finset.univ : Finset (Fin 128))) (funext fun j => v3_eq x1 x2 x3 h m j)

/-- The shifted exponential. -/
theorem v10_eq (h : Fin 8) (m : Fin 64) (j : Fin 128) :
    val_main_v10 (F := Ideal) x1 x2 x3 (ix3 h m j) = keyExp (fn3 x1) (fn3 x2) (fn2 x3) h m j := by
  rw [val_main_v10_apply, val_main_v9_apply, val_main_v8_apply, val_main_v7_apply]
  have e : idx_main_v7 (idx_main_v8 (ix3 h m j)) = ix2 h m := funext fun a => Fin.ext (by
    match a with | ⟨0, _⟩ => rfl | ⟨1, _⟩ => rfl)
  rw [e, v3_eq, v6_eq]
  simp only [Ideal.hostUnary_exp_def, Ideal.subf_def]
  rfl

/-- The row sum of the shifted exponentials (the sum starts from zero). -/
theorem v11_eq (h : Fin 8) (m : Fin 64) :
    val_main_v11 (F := Ideal) x1 x2 x3 (ix2 h m) = ∑ j' : Fin 128, keyExp (fn3 x1) (fn3 x2) (fn2 x3) h m j' := by
  rw [val_main_v11_apply, val_main_cst_1_apply]
  have e : ∀ k : Fin 128, idx_main_v11 (ix2 h m) k = ix3 h m k := fun k => funext fun a => Fin.ext (by
    match a with | ⟨0, _⟩ => rfl | ⟨1, _⟩ => rfl | ⟨2, _⟩ => rfl)
  simp only [e, v10_eq, Ideal.ofBits_def, Ideal.ofBits_zero_f32, zero_add]

/-- The memory keys: the row softmax. -/
theorem v14_eq (h : Fin 8) (m : Fin 64) (j : Fin 128) :
    val_main_v14 (F := Ideal) x1 x2 x3 (ix3 h m j) = memKey (fn3 x1) (fn3 x2) (fn2 x3) h m j := by
  rw [val_main_v14_apply, val_main_v13_apply, val_main_v12_apply]
  have e : idx_main_v12 (idx_main_v13 (ix3 h m j)) = ix2 h m := funext fun a => Fin.ext (by
    match a with | ⟨0, _⟩ => rfl | ⟨1, _⟩ => rfl)
  rw [e, v10_eq, v11_eq]
  simp only [Ideal.hostDivf_def]
  rfl

end Keys

section Values
variable (x1 : (⟨S8x64x128, .f32⟩ : BufTy).Contents (Elt Ideal)) (x4 : (⟨S8x128x128, .f32⟩ : BufTy).Contents (Elt Ideal))
  (x5 : (⟨S8x128, .f32⟩ : BufTy).Contents (Elt Ideal))

/-- The memory values: the same affine map with the value weights. -/
theorem v18_eq (h : Fin 8) (m : Fin 64) (u : Fin 128) :
    val_main_v18 (F := Ideal) x1 x4 x5 (ix3 h m u) = logit (fn3 x1) (fn3 x4) (fn2 x5) h m u := by
  rw [val_main_v18_apply, val_main_v15_apply, val_main_v17_apply, val_main_v16_apply]
  have e1 : ∀ k : Fin 128, lidx_main_v15 (ix3 h m u) k = ix3 h m k := fun k => funext fun a => Fin.ext (by
    match a with | ⟨0, _⟩ => rfl | ⟨1, _⟩ => rfl | ⟨2, _⟩ => rfl)
  have e2 : ∀ k : Fin 128, ridx_main_v15 (ix3 h m u) k = ix3 h k u := fun k => funext fun a => Fin.ext (by
    match a with | ⟨0, _⟩ => rfl | ⟨1, _⟩ => rfl | ⟨2, _⟩ => rfl)
  have e3 : idx_main_v16 (idx_main_v17 (ix3 h m u)) = ix2 h u := funext fun a => Fin.ext (by
    match a with | ⟨0, _⟩ => rfl | ⟨1, _⟩ => rfl)
  simp only [e1, e2, e3, Ideal.addf_def]
  rfl

end Values

end Cert.Mhm.Ref

end
-- ==== Proof.RefValueB.lean ====
/-
  The head-by-head arrangement read at an index, part two: scores, attention weights, head outputs, and the output
  projection.

  Each remaining stage of the reference program is identified, at explicit coordinates, with the corresponding function
  of the specification; the last theorem reads the program's result at (n, v) as the specification's output there.
-/
import proofs.«167654_g45337674776981_feedfinal_438_9_alg».proof.Proof.Spec
import proofs.«167654_g45337674776981_feedfinal_438_9_alg».proof.Proof.Gen.ReferenceIdeal.Read
import proofs.«167654_g45337674776981_feedfinal_438_9_alg».proof.Proof.RefValueA

noncomputable section

open scoped BigOperators

namespace Cert.Mhm.Ref

open Cert.ReferenceIdeal Cert.ReferenceIdeal.Gen Cert.ReferenceIdeal.Read Idealize.ShloMosaic Idealize.ShloMosaic.ValueIdx

section Scores
variable (x0 : (⟨S262144x128, .f32⟩ : BufTy).Contents (Elt Ideal)) (x1 : (⟨S8x64x128, .f32⟩ : BufTy).Contents (Elt Ideal))
  (x2 : (⟨S8x128x128, .f32⟩ : BufTy).Contents (Elt Ideal)) (x3 : (⟨S8x128, .f32⟩ : BufTy).Contents (Elt Ideal))

/-- The scores, keys on the left: entry (h, m, n) of the product is the score of row n against slot m of head h. -/
theorem v19_eq (h : Fin 8) (m : Fin 64) (n : Fin 262144) :
    val_main_v19 (F := Ideal) x0 x1 x2 x3 (ix3 h m n) = rScore (fn2 x0) (fn3 x1) (fn3 x2) (fn2 x3) h n m := by
  rw [val_main_v19_apply]
  have e1 : ∀ k : Fin 128, lidx_main_v19 (ix3 h m n) k = ix3 h m k := fun k => funext fun a => Fin.ext (by
    match a with | ⟨0, _⟩ => rfl | ⟨1, _⟩ => rfl | ⟨2, _⟩ => rfl)
  have e2 : ∀ k : Fin 128, ridx_main_v19 (ix3 h m n) k = ix2 n k := fun k => funext fun a => Fin.ext (by
    match a with | ⟨0, _⟩ => rfl | ⟨1, _⟩ => rfl)
  simp only [e1, e2, v14_eq]
  rfl

/-- The transposed scores: entry (h, n, m). -/
theorem v20_eq (h : Fin 8) (n : Fin 262144) (m : Fin 64) :
    val_main_v20 (F := Ideal) x0 x1 x2 x3 (ix3 h n m) = rScore (fn2 x0) (fn3 x1) (fn3 x2) (fn2 x3) h n m := by
  rw [val_main_v20_apply]
  have e : idx_main_v20 (ix3 h n m) = ix3 h m n := funext fun a => Fin.ext (by
    match a with | ⟨0, _⟩ => rfl | ⟨1, _⟩ => rfl | ⟨2, _⟩ => rfl)
  rw [e, v19_eq]

/-- The maximum of a head's 64 scores. -/
theorem v23_eq (h : Fin 8) (n : Fin 262144) :
    val_main_v23 (F := Ideal) x0 x1 x2 x3 (ix2 h n) = rScoreMax (fn2 x0) (fn3 x1) (fn3 x2) (fn2 x3) h n := by
  rw [val_main_v23_apply, val_main_v22_apply, val_main_cst_3_apply]
  unfold val_main_v21 val_main_cst_2
  rw [hostMax_last3 _ reducesTo_S8x262144x64_S8x262144_d2 (by decide) h_S_ h n]
  simp only [Ideal.maximumf_def, Ideal.ofBits_def, ofBits_neg_inf, bot_sup_eq, max_bot_left]
  unfold rScoreMax
  exact congrArg (fun f => Finset.fold max (⊥ : EReal) f (Finset.univ : Finset (Fin 64))) (funext fun m => v20_eq x0 x1 x2 x3 h n m)

/-- The shifted exponential of a score. -/
theorem v27_eq (h : Fin 8) (n : Fin 262144) (m : Fin 64) :
    val_main_v27 (F := Ideal) x0 x1 x2 x3 (ix3 h n m) = rExp (fn2 x0) (fn3 x1) (fn3 x2) (fn2 x3) h n m := by
  rw [val_main_v27_apply, val_main_v26_apply, val_main_v25_apply, val_main_v24_apply]
  have e : idx_main_v24 (idx_main_v25 (ix3 h n m)) = ix2 h n := funext fun a => Fin.ext (by
    match a with | ⟨0, _⟩ => rfl | ⟨1, _⟩ => rfl)
  rw [e, v20_eq, v23_eq]
  simp only [Ideal.hostUnary_exp_def, Ideal.subf_def]
  rfl

/-- The sum of a head's 64 shifted exponentials (the sum starts from zero). -/
theorem v28_eq (h : Fin 8) (n : Fin 262144) :
    val_main_v28 (F := Ideal) x0 x1 x2 x3 (ix2 h n) = ∑ m' : Fin 64, rExp (fn2 x0) (fn3 x1) (fn3 x2) (fn2 x3) h n m' := by
  rw [val_main_v28_apply, val_main_cst_4_apply]
  have e : ∀ k : Fin 64, idx_main_v28 (ix2 h n) k = ix3 h n k := fun k => funext fun a => Fin.ext (by
    match a with | ⟨0, _⟩ => rfl | ⟨1, _⟩ => rfl | ⟨2, _⟩ => rfl)
  simp only [e, v27_eq, Ideal.ofBits_def, Ideal.ofBits_zero_f32, zero_add]

/-- The attention weights: the softmax of a head's scores. -/
theorem v31_eq (h : Fin 8) (n : Fin 262144) (m : Fin 64) :
    val_main_v31 (F := Ideal) x0 x1 x2 x3 (ix3 h n m) = rWeight (fn2 x0) (fn3 x1) (fn3 x2) (fn2 x3) h n m := by
  rw [val_main_v31_apply, val_main_v30_apply, val_main_v29_apply]
  have e : idx_main_v29 (idx_main_v30 (ix3 h n m)) = ix2 h n := funext fun a => Fin.ext (by
    match a with | ⟨0, _⟩ => rfl | ⟨1, _⟩ => rfl)
  rw [e, v27_eq, v28_eq]
  simp only [Ideal.hostDivf_def]
  rfl

end Scores

section Output
variable (x0 : (⟨S262144x128, .f32⟩ : BufTy).Contents (Elt Ideal)) (x1 : (⟨S8x64x128, .f32⟩ : BufTy).Contents (Elt Ideal))
  (x2 : (⟨S8x128x128, .f32⟩ : BufTy).Contents (Elt Ideal)) (x3 : (⟨S8x128, .f32⟩ : BufTy).Contents (Elt Ideal))
  (x4 : (⟨S8x128x128, .f32⟩ : BufTy).Contents (Elt Ideal)) (x5 : (⟨S8x128, .f32⟩ : BufTy).Contents (Elt Ideal))
  (x6 : (⟨S1024x128, .f32⟩ : BufTy).Contents (Elt Ideal)) (x7 : (⟨S128, .f32⟩ : BufTy).Contents (Elt Ideal))

/-- One head's output: the weights contracted with the head's memory values over the 64 slots. -/
theorem v32_eq (h : Fin 8) (n : Fin 262144) (u : Fin 128) :
    val_main_v32 (F := Ideal) x0 x1 x2 x3 x4 x5 (ix3 h n u)
      = rHeadOut (fn2 x0) (fn3 x1) (fn3 x2) (fn2 x3) (fn3 x4) (fn2 x5) h n u := by
  rw [val_main_v32_apply]
  have e1 : ∀ k : Fin 64, lidx_main_v32 (ix3 h n u) k = ix3 h n k := fun k => funext fun a => Fin.ext (by
    match a with | ⟨0, _⟩ => rfl | ⟨1, _⟩ => rfl | ⟨2, _⟩ => rfl)
  have e2 : ∀ k : Fin 64, ridx_main_v32 (ix3 h n u) k = ix3 h k u := fun k => funext fun a => Fin.ext (by
    match a with | ⟨0, _⟩ => rfl | ⟨1, _⟩ => rfl | ⟨2, _⟩ => rfl)
  simp only [e1, e2, v31_eq, v18_eq]
  rfl

/-- The heads concatenated: flat feature f = 128 h + u of row n is lane u of head h's output. -/
theorem v34_eq (n : Fin 262144) (f : Fin 1024) :
    val_main_v34 (F := Ideal) x0 x1 x2 x3 x4 x5 (ix2 n f)
      = rHeadOut (fn2 x0) (fn3 x1) (fn3 x2) (fn2 x3) (fn3 x4) (fn2 x5) (featHead f) n (featLane f) := by
  rw [val_main_v34_apply, val_main_v33_apply]
  have hn : n.val < 262144 := n.isLt
  have hf : f.val < 1024 := f.isLt
  have e : idx_main_v33 (idx_main_v34 (ix2 n f)) = ix3 (featHead f) n (featLane f) := funext fun a => Fin.ext (by
    match a with
    | ⟨0, _⟩ => show (n.val * 1024 + f.val) / 128 % 8 = f.val / 128; omega
    | ⟨1, _⟩ => show (n.val * 1024 + f.val) / 1024 = n.val; omega
    | ⟨2, _⟩ => show (n.val * 1024 + f.val) % 128 = f.val % 128; omega)
  rw [e, v32_eq]

/-- The output projection: the 1024 concatenated features contracted with Wf. -/
theorem v35_eq (n : Fin 262144) (v : Fin 128) :
    val_main_v35 (F := Ideal) x0 x1 x2 x3 x4 x5 x6 (ix2 n v)
      = ∑ f : Fin 1024, rHeadOut (fn2 x0) (fn3 x1) (fn3 x2) (fn2 x3) (fn3 x4) (fn2 x5) (featHead f) n (featLane f) * fn2 x6 f v := by
  rw [val_main_v35_apply]
  have e1 : ∀ k : Fin 1024, lidx_main_v35 (ix2 n v) k = ix2 n k := fun k => funext fun a => Fin.ext (by
    match a with | ⟨0, _⟩ => rfl | ⟨1, _⟩ => rfl)
  have e2 : ∀ k : Fin 1024, ridx_main_v35 (ix2 n v) k = ix2 k v := fun k => funext fun a => Fin.ext (by
    match a with | ⟨0, _⟩ => rfl | ⟨1, _⟩ => rfl)
  simp only [e1, e2, v34_eq]

end Output

/-- The reference program's result at (n, v) is the head-by-head arrangement's output there: the projection plus the
    output bias, the bias broadcast along the rows. -/
theorem val_eq_refOut
    (x0 : (⟨S262144x128, .f32⟩ : BufTy).Contents (Elt Ideal)) (x1 : (⟨S8x64x128, .f32⟩ : BufTy).Contents (Elt Ideal))
    (x2 : (⟨S8x128x128, .f32⟩ : BufTy).Contents (Elt Ideal)) (x3 : (⟨S8x128, .f32⟩ : BufTy).Contents (Elt Ideal))
    (x4 : (⟨S8x128x128, .f32⟩ : BufTy).Contents (Elt Ideal)) (x5 : (⟨S8x128, .f32⟩ : BufTy).Contents (Elt Ideal))
    (x6 : (⟨S1024x128, .f32⟩ : BufTy).Contents (Elt Ideal)) (x7 : (⟨S128, .f32⟩ : BufTy).Contents (Elt Ideal))
    (n : Fin 262144) (v : Fin 128) :
    val_main_v38 (F := Ideal) x0 x1 x2 x3 x4 x5 x6 x7 (ix2 n v)
      = Cert.Mhm.refOut (fun n j => x0 (ix2 n j)) (fun h m d => x1 (ix3 h m d)) (fun h d j => x2 (ix3 h d j))
          (fun h j => x3 (ix2 h j)) (fun h d u => x4 (ix3 h d u)) (fun h u => x5 (ix2 h u))
          (fun f v => x6 (ix2 f v)) (fun v => x7 (ix1 v)) n v := by
  rw [val_main_v38_apply, val_main_v37_apply, val_main_v36_apply]
  have e : idx_main_v36 (idx_main_v37 (ix2 n v)) = ix1 v := funext fun a => Fin.ext (by
    match a with | ⟨0, _⟩ => rfl)
  rw [e, v35_eq]
  simp only [Ideal.addf_def]
  rfl

end Cert.Mhm.Ref

end
-- ==== Proof.AlgebraReal.lean ====
/-
  Real numbers inside the extended reals: finite sums, products, maxima, exponentials and quotients of
  real numbers are real numbers, and the coercion commutes with each of them.  The closing lemma is the
  softmax of a family of reals with ANY real shift subtracted: it is the coercion of the unshifted real softmax.
-/
import proofs.«167654_g45337674776981_feedfinal_438_9_alg».proof.Proof.Spec

noncomputable section

open scoped BigOperators

namespace Cert.Mhm

open Idealize.ShloMosaic

/-- The coercion commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion commutes with the maximum of two reals. -/
theorem coe_max' (a b : ℝ) : max ((a : ℝ) : EReal) ((b : ℝ) : EReal) = ((max a b : ℝ) : EReal) :=
  (EReal.coe_strictMono.monotone.map_max).symm

/-- The fold of max from -∞ over a nonempty finite family of reals is a real. -/
theorem fold_max_coe {ι : Type*} (f : ι → ℝ) {s : Finset ι} (hs : s.Nonempty) :
    ∃ r : ℝ, s.fold max ⊥ (fun i => ((f i : ℝ) : EReal)) = (r : EReal) := by
  induction hs using Finset.Nonempty.cons_induction with
  | singleton a => exact ⟨f a, by rw [Finset.fold_singleton, max_eq_left bot_le]⟩
  | cons a s ha hs ih =>
    obtain ⟨r, hr⟩ := ih
    exact ⟨max (f a) r, by rw [Finset.fold_cons, hr, coe_max']⟩

/-- exp of a difference of two reals. -/
theorem exp_coe_sub (x y : ℝ) : Ideal.exp ((x : EReal) - (y : EReal)) = ((Real.exp (x - y) : ℝ) : EReal) := rfl

/-- exp of a real. -/
theorem exp_coe' (x : ℝ) : Ideal.exp (x : EReal) = ((Real.exp x : ℝ) : EReal) := rfl

/-- The quotient of two reals with a nonzero denominator is the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- A sum of exponentials over a nonempty finite type is not zero. -/
theorem sum_exp_ne_zero {ι : Type*} [Fintype ι] [Nonempty ι] (a : ι → ℝ) : (∑ i, Real.exp (a i)) ≠ 0 :=
  (Finset.sum_pos (fun i _ => Real.exp_pos (a i)) Finset.univ_nonempty).ne'

/-- The real softmax of a finite family. -/
def smR {ι : Type*} [Fintype ι] (a : ι → ℝ) (i : ι) : ℝ := Real.exp (a i) / ∑ i', Real.exp (a i')

/-- Shift invariance of the real softmax. -/
theorem smR_shift {ι : Type*} [Fintype ι] [Nonempty ι] (a : ι → ℝ) (M : ℝ) (i : ι) :
    Real.exp (a i - M) / (∑ i', Real.exp (a i' - M)) = smR a i := by
  have hM : Real.exp M ≠ 0 := (Real.exp_pos M).ne'
  have hS : (∑ i', Real.exp (a i')) ≠ 0 := sum_exp_ne_zero a
  simp only [Real.exp_sub, smR]
  rw [← Finset.sum_div]
  field_simp

/-- The softmax of reals with any real shift subtracted, computed in the extended reals, is the coercion of the
    real softmax. -/
theorem softmax_coe {ι : Type*} [Fintype ι] [Nonempty ι] (a : ι → ℝ) (M : ℝ) (i : ι) :
    Ideal.div (Ideal.exp ((a i : EReal) - (M : EReal))) (∑ i', Ideal.exp ((a i' : EReal) - (M : EReal)))
      = ((smR a i : ℝ) : EReal) := by
  simp only [exp_coe_sub]
  rw [← coe_sum, div_coe_coe _ (sum_exp_ne_zero (fun i' => a i' - M)), smR_shift]

/-- The softmax of reals with NO shift, computed in the extended reals. -/
theorem softmax_coe_noshift {ι : Type*} [Fintype ι] [Nonempty ι] (a : ι → ℝ) (i : ι) :
    Ideal.div (Ideal.exp (a i : EReal)) (((∑ i', Real.exp (a i') : ℝ)) : EReal) = ((smR a i : ℝ) : EReal) := by
  rw [exp_coe', div_coe_coe _ (sum_exp_ne_zero a)]; rfl

end Cert.Mhm

end
-- ==== Proof.AlgebraShared.lean ====
/-
  The shared part with real inputs: the logits are real affine maps, and the memory keys (the row softmax of the
  logits with the row maximum subtracted) are the real softmax of the real logits.
-/
import proofs.«167654_g45337674776981_feedfinal_438_9_alg».proof.Proof.AlgebraReal

noncomputable section

open scoped BigOperators

namespace Cert.Mhm

open Idealize.ShloMosaic

section Shared
variable {mems : Fin 8 → Fin 64 → Fin 128 → EReal} {W : Fin 8 → Fin 128 → Fin 128 → EReal} {b : Fin 8 → Fin 128 → EReal}
  {memsr : Fin 8 → Fin 64 → Fin 128 → ℝ} {Wr : Fin 8 → Fin 128 → Fin 128 → ℝ} {br : Fin 8 → Fin 128 → ℝ}

/-- The real logits: (Σ_d mems h m d · W h d j) + b h j. -/
def logitR (memsr : Fin 8 → Fin 64 → Fin 128 → ℝ) (Wr : Fin 8 → Fin 128 → Fin 128 → ℝ) (br : Fin 8 → Fin 128 → ℝ)
    (h : Fin 8) (m : Fin 64) (j : Fin 128) : ℝ := (∑ d : Fin 128, memsr h m d * Wr h d j) + br h j

/-- The real memory keys: the softmax of each row of real logits. -/
def memKeyR (memsr : Fin 8 → Fin 64 → Fin 128 → ℝ) (Wr : Fin 8 → Fin 128 → Fin 128 → ℝ) (br : Fin 8 → Fin 128 → ℝ)
    (h : Fin 8) (m : Fin 64) (j : Fin 128) : ℝ := smR (logitR memsr Wr br h m) j

/-- With real inputs the logits are the real logits. -/
theorem logit_coe (hm : ∀ h m d, mems h m d = ((memsr h m d : ℝ) : EReal))
    (hW : ∀ h d j, W h d j = ((Wr h d j : ℝ) : EReal)) (hb : ∀ h j, b h j = ((br h j : ℝ) : EReal))
    (h : Fin 8) (m : Fin 64) (j : Fin 128) :
    logit mems W b h m j = ((logitR memsr Wr br h m j : ℝ) : EReal) := by
  simp only [logit, logitR, hm, hW, hb, EReal.coe_add, coe_sum, EReal.coe_mul]

/-- With real inputs the memory keys are the real memory keys: the row maximum is a real number, and the softmax
    does not depend on the real number subtracted. -/
theorem memKey_coe (hm : ∀ h m d, mems h m d = ((memsr h m d : ℝ) : EReal))
    (hW : ∀ h d j, W h d j = ((Wr h d j : ℝ) : EReal)) (hb : ∀ h j, b h j = ((br h j : ℝ) : EReal))
    (h : Fin 8) (m : Fin 64) (j : Fin 128) :
    memKey mems W b h m j = ((memKeyR memsr Wr br h m j : ℝ) : EReal) := by
  have hl : ∀ j, logit mems W b h m j = ((logitR memsr Wr br h m j : ℝ) : EReal) := logit_coe hm hW hb h m
  obtain ⟨M, hM⟩ := fold_max_coe (logitR memsr Wr br h m) (Finset.univ_nonempty (α := Fin 128))
  have hmax : logitMax mems W b h m = (M : EReal) := by
    unfold logitMax
    simp only [hl]
    exact hM
  unfold memKey keyExp
  simp only [hl, hmax]
  exact softmax_coe (logitR memsr Wr br h m) M j

end Shared

end Cert.Mhm

end
-- ==== Proof.AlgebraIndex.lean ====
/-
  Reindexing of the flat sums: the 512 flat columns are the pairs (head, slot), c = 64 h + m; they are also the two
  halves lo and hi of 256 columns each; the 1024 flat features are the pairs (head, lane), f = 128 h + u.
-/
import proofs.«167654_g45337674776981_feedfinal_438_9_alg».proof.Proof.Spec

noncomputable section

open scoped BigOperators

namespace Cert.Mhm

open Idealize.ShloMosaic

/-- The flat column 64 h + m. -/
def col (h : Fin 8) (m : Fin 64) : Fin 512 := ⟨h.val * 64 + m.val, by omega⟩

theorem colHead_col (h : Fin 8) (m : Fin 64) : colHead (col h m) = h := by
  apply Fin.ext; simp only [colHead, col]; omega

theorem colSlot_col (h : Fin 8) (m : Fin 64) : colSlot (col h m) = m := by
  apply Fin.ext; simp only [colSlot, col]; omega

theorem col_colHead_colSlot (c : Fin 512) : col (colHead c) (colSlot c) = c := by
  apply Fin.ext; simp only [colHead, colSlot, col]; omega

/-- The pairs (head, slot) are the flat columns. -/
def colEquiv : Fin 8 × Fin 64 ≃ Fin 512 where
  toFun p := col p.1 p.2
  invFun c := (colHead c, colSlot c)
  left_inv p := by
    show (colHead (col p.1 p.2), colSlot (col p.1 p.2)) = p
    rw [colHead_col, colSlot_col]
  right_inv c := col_colHead_colSlot c

/-- A sum over the flat columns is the double sum over heads and slots. -/
theorem sum_col {M : Type*} [AddCommMonoid M] (F : Fin 512 → M) :
    ∑ c : Fin 512, F c = ∑ h : Fin 8, ∑ m : Fin 64, F (col h m) := by
  rw [← Equiv.sum_comp colEquiv F, Fintype.sum_prod_type]; rfl

theorem featHead_feat (h : Fin 8) (u : Fin 128) : featHead (feat h u) = h := by
  apply Fin.ext; simp only [featHead, feat]; omega

theorem featLane_feat (h : Fin 8) (u : Fin 128) : featLane (feat h u) = u := by
  apply Fin.ext; simp only [featLane, feat]; omega

theorem feat_featHead_featLane (f : Fin 1024) : feat (featHead f) (featLane f) = f := by
  apply Fin.ext; simp only [featHead, featLane, feat]; omega

/-- The pairs (head, lane) are the flat features. -/
def featEquiv : Fin 8 × Fin 128 ≃ Fin 1024 where
  toFun p := feat p.1 p.2
  invFun f := (featHead f, featLane f)
  left_inv p := by
    show (featHead (feat p.1 p.2), featLane (feat p.1 p.2)) = p
    rw [featHead_feat, featLane_feat]
  right_inv f := feat_featHead_featLane f

/-- A sum over the flat features is the double sum over heads and lanes. -/
theorem sum_feat {M : Type*} [AddCommMonoid M] (F : Fin 1024 → M) :
    ∑ f : Fin 1024, F f = ∑ h : Fin 8, ∑ u : Fin 128, F (feat h u) := by
  rw [← Equiv.sum_comp featEquiv F, Fintype.sum_prod_type]; rfl

/-- The sum over the first half plus the sum over the second half is the sum over all flat columns
    (512 = 256 + 256; lo c is column c, hi c is column 256 + c). -/
theorem sum_lo_add_sum_hi {M : Type*} [AddCommMonoid M] (F : Fin 512 → M) :
    (∑ c : Fin 256, F (lo c)) + (∑ c : Fin 256, F (hi c)) = ∑ c : Fin 512, F c := by
  have h := Fin.sum_univ_add (a := 256) (b := 256) (fun c : Fin (256 + 256) => F c)
  exact h.symm

end Cert.Mhm

end
-- ==== Proof.AlgebraModel.lean ====
/-
  The real-valued model of both arrangements and the identity between them.

  With real keys K h m j, real values V h m u, a real query row q, real weights Wf and bias bf:
    score  s h m = Σ_j K h m j · q j,      weight w h m = exp (s h m) / Σ_m' exp (s h m')
  The fused model sums, over the two halves of the 512 flat columns c = 64 h + m, the products
    w h m · (Σ_u V h m u · Wf (128 h + u) v);
  the head-by-head model sums, over the 1024 flat features f = 128 h + u, the products
    (Σ_m w h m · V h m u) · Wf f v.
  Both are Σ_h Σ_m Σ_u w h m · V h m u · Wf (128 h + u) v, summed in two orders.
-/
import proofs.«167654_g45337674776981_feedfinal_438_9_alg».proof.Proof.AlgebraReal
import proofs.«167654_g45337674776981_feedfinal_438_9_alg».proof.Proof.AlgebraIndex

noncomputable section

open scoped BigOperators

namespace Cert.Mhm

open Idealize.ShloMosaic

section Model
variable (K V : Fin 8 → Fin 64 → Fin 128 → ℝ) (q : Fin 128 → ℝ) (Wf : Fin 1024 → Fin 128 → ℝ) (bf : Fin 128 → ℝ)

/-- The real score of slot m of head h. -/
def scR (h : Fin 8) (m : Fin 64) : ℝ := ∑ j : Fin 128, K h m j * q j
/-- The real attention weight: the softmax of a head's scores. -/
def wtR (h : Fin 8) (m : Fin 64) : ℝ := smR (scR K q h) m
/-- The real row of the value table: Σ_u V h m u · Wf (128 h + u) v. -/
def gR (h : Fin 8) (m : Fin 64) (v : Fin 128) : ℝ := ∑ u : Fin 128, V h m u * Wf (feat h u) v
/-- The fused real model, in the fused arrangement's own order of summation. -/
def kernelR (v : Fin 128) : ℝ :=
  ((∑ c : Fin 256, wtR K q (colHead (lo c)) (colSlot (lo c)) * gR V Wf (colHead (lo c)) (colSlot (lo c)) v)
    + (∑ c : Fin 256, wtR K q (colHead (hi c)) (colSlot (hi c)) * gR V Wf (colHead (hi c)) (colSlot (hi c)) v)) + bf v
/-- One head's real output. -/
def headR (h : Fin 8) (u : Fin 128) : ℝ := ∑ m : Fin 64, wtR K q h m * V h m u
/-- The head-by-head real model. -/
def refR (v : Fin 128) : ℝ := (∑ f : Fin 1024, headR K V q (featHead f) (featLane f) * Wf f v) + bf v

/-- Per head, the two orders of summation agree. -/
theorem head_sum_swap (h : Fin 8) (v : Fin 128) :
    ∑ m : Fin 64, wtR K q h m * gR V Wf h m v = ∑ u : Fin 128, headR K V q h u * Wf (feat h u) v := by
  simp only [gR, headR, Finset.mul_sum, Finset.sum_mul]
  rw [Finset.sum_comm]
  refine Finset.sum_congr rfl (fun u _ => Finset.sum_congr rfl (fun m _ => ?_))
  ring

/-- The two real models agree. -/
theorem kernelR_eq_refR (v : Fin 128) : kernelR K V q Wf bf v = refR K V q Wf bf v := by
  unfold kernelR refR
  congr 1
  refine (sum_lo_add_sum_hi
    (fun c => wtR K q (colHead c) (colSlot c) * gR V Wf (colHead c) (colSlot c) v)).trans ?_
  rw [sum_col, sum_feat]
  refine Finset.sum_congr rfl (fun h _ => ?_)
  simp only [colHead_col, colSlot_col, featHead_feat, featLane_feat]
  exact head_sum_swap K V q Wf h v

/-- The masked sum over the 512 flat columns keeps exactly the 64 columns of the head of c. -/
theorem sum_mask (F : Fin 8 → Fin 64 → ℝ) (c : Fin 512) :
    ∑ j : Fin 512, F (colHead j) (colSlot j) * (if colHead j = colHead c then (1 : ℝ) else 0)
      = ∑ m : Fin 64, F (colHead c) m := by
  rw [sum_col]
  simp only [colHead_col, colSlot_col, mul_ite, mul_one, mul_zero]
  have hin : ∀ h : Fin 8, (∑ m : Fin 64, if h = colHead c then F h m else 0)
      = if h = colHead c then ∑ m : Fin 64, F h m else 0 := by
    intro h
    by_cases hh : h = colHead c
    · simp only [if_pos hh]
    · simp only [if_neg hh]; exact Finset.sum_const_zero
  simp only [hin, Finset.sum_ite_eq', Finset.mem_univ, if_true]

end Model

end Cert.Mhm

end
-- ==== Proof.AlgebraKernel.lean ====
/-
  The fused arrangement with real inputs is the coercion of the fused real model: the scores are real, the 0/1 mask
  keeps exactly the 64 exponentials of the column's own head, the masked sum is a positive real, so each weight is the
  real softmax weight; the value table's rows are real; sums and products of reals stay real.
-/
import proofs.«167654_g45337674776981_feedfinal_438_9_alg».proof.Proof.AlgebraShared
import proofs.«167654_g45337674776981_feedfinal_438_9_alg».proof.Proof.AlgebraModel

noncomputable section

open scoped BigOperators

namespace Cert.Mhm

open Idealize.ShloMosaic

section Fused
variable {k : Fin 262144 → Fin 128 → EReal} {MK : Fin 512 → Fin 128 → EReal} {n : Fin 262144}
  {q : Fin 128 → ℝ} {K : Fin 8 → Fin 64 → Fin 128 → ℝ}

/-- The fused score of column c = 64 h + m is the real score of (h, m) (the product commutes). -/
theorem kScore_coe (hk : ∀ j, k n j = ((q j : ℝ) : EReal))
    (hMK : ∀ c j, MK c j = ((K (colHead c) (colSlot c) j : ℝ) : EReal)) (c : Fin 512) :
    kScore k MK n c = ((scR K q (colHead c) (colSlot c) : ℝ) : EReal) := by
  simp only [kScore, scR, hk, hMK, coe_sum, EReal.coe_mul]
  exact Finset.sum_congr rfl (fun j _ => mul_comm _ _)

/-- The mask is the coercion of the real 0/1 indicator of "same head". -/
theorem segMask_coe (j c : Fin 512) :
    segMask j c = (((if colHead j = colHead c then (1 : ℝ) else 0) : ℝ) : EReal) := by
  unfold segMask
  have hiff : (j.val / 64 = c.val / 64) ↔ colHead j = colHead c := by
    simp only [colHead, Fin.mk.injEq]
  by_cases h : colHead j = colHead c
  · rw [if_pos h, if_pos (hiff.mpr h)]; rfl
  · rw [if_neg h, if_neg (fun h' => h (hiff.mp h'))]; rfl

/-- The fused weight of column c = 64 h + m is the real softmax weight of (h, m). -/
theorem kWeight_coe (hk : ∀ j, k n j = ((q j : ℝ) : EReal))
    (hMK : ∀ c j, MK c j = ((K (colHead c) (colSlot c) j : ℝ) : EReal)) (c : Fin 512) :
    kWeight k MK segMask n c = ((wtR K q (colHead c) (colSlot c) : ℝ) : EReal) := by
  have hs : ∀ j, kScore k MK n j = ((scR K q (colHead j) (colSlot j) : ℝ) : EReal) := kScore_coe hk hMK
  have hden : (∑ j : Fin 512, Ideal.exp (kScore k MK n j) * segMask j c)
      = (((∑ m : Fin 64, Real.exp (scR K q (colHead c) m)) : ℝ) : EReal) := by
    simp only [hs, exp_coe', segMask_coe, ← EReal.coe_mul, ← coe_sum]
    exact congrArg (fun x : ℝ => (x : EReal)) (sum_mask (fun h m => Real.exp (scR K q h m)) c)
  unfold kWeight
  rw [hden, hs c]
  exact softmax_coe_noshift (scR K q (colHead c)) (colSlot c)

end Fused

section Out
variable {k : Fin 262144 → Fin 128 → EReal} {mems : Fin 8 → Fin 64 → Fin 128 → EReal}
  {Wk : Fin 8 → Fin 128 → Fin 128 → EReal} {bk : Fin 8 → Fin 128 → EReal}
  {Wv : Fin 8 → Fin 128 → Fin 128 → EReal} {bv : Fin 8 → Fin 128 → EReal}
  {Wf : Fin 1024 → Fin 128 → EReal} {bf : Fin 128 → EReal}
  {kr : Fin 262144 → Fin 128 → ℝ} {memsr : Fin 8 → Fin 64 → Fin 128 → ℝ}
  {Wkr : Fin 8 → Fin 128 → Fin 128 → ℝ} {bkr : Fin 8 → Fin 128 → ℝ}
  {Wvr : Fin 8 → Fin 128 → Fin 128 → ℝ} {bvr : Fin 8 → Fin 128 → ℝ}
  {Wfr : Fin 1024 → Fin 128 → ℝ} {bfr : Fin 128 → ℝ}

/-- The value table's rows are real. -/
theorem gFlat_coe (hm : ∀ h m d, mems h m d = ((memsr h m d : ℝ) : EReal))
    (hWv : ∀ h d u, Wv h d u = ((Wvr h d u : ℝ) : EReal)) (hbv : ∀ h u, bv h u = ((bvr h u : ℝ) : EReal))
    (hWf : ∀ f v, Wf f v = ((Wfr f v : ℝ) : EReal)) (c : Fin 512) (v : Fin 128) :
    gFlat mems Wv bv Wf c v = ((gR (logitR memsr Wvr bvr) Wfr (colHead c) (colSlot c) v : ℝ) : EReal) := by
  simp only [gFlat, gR, logit_coe hm hWv hbv, hWf, coe_sum, EReal.coe_mul]

/-- With real inputs the fused arrangement's output is the coercion of the fused real model. -/
theorem kernelOut_coe (hk : ∀ n j, k n j = ((kr n j : ℝ) : EReal))
    (hm : ∀ h m d, mems h m d = ((memsr h m d : ℝ) : EReal))
    (hWk : ∀ h d j, Wk h d j = ((Wkr h d j : ℝ) : EReal)) (hbk : ∀ h j, bk h j = ((bkr h j : ℝ) : EReal))
    (hWv : ∀ h d u, Wv h d u = ((Wvr h d u : ℝ) : EReal)) (hbv : ∀ h u, bv h u = ((bvr h u : ℝ) : EReal))
    (hWf : ∀ f v, Wf f v = ((Wfr f v : ℝ) : EReal)) (hbf : ∀ v, bf v = ((bfr v : ℝ) : EReal))
    (n : Fin 262144) (v : Fin 128) :
    kernelOut k mems Wk bk Wv bv Wf bf n v
      = ((kernelR (memKeyR memsr Wkr bkr) (logitR memsr Wvr bvr) (kr n) Wfr bfr v : ℝ) : EReal) := by
  have hMK : ∀ c j, mkFlat mems Wk bk c j = ((memKeyR memsr Wkr bkr (colHead c) (colSlot c) j : ℝ) : EReal) :=
    fun c j => memKey_coe hm hWk hbk (colHead c) (colSlot c) j
  have hw : ∀ c, kWeight k (mkFlat mems Wk bk) segMask n c
      = ((wtR (memKeyR memsr Wkr bkr) (kr n) (colHead c) (colSlot c) : ℝ) : EReal) :=
    kWeight_coe (hk n) hMK
  have hg := gFlat_coe hm hWv hbv hWf
  simp only [kernelOut, kOut, kernelR, hw, hg, hbf, EReal.coe_add, coe_sum, EReal.coe_mul]

end Out

end Cert.Mhm

end
-- ==== Proof.AlgebraRef.lean ====
/-
  The head-by-head arrangement with real inputs is the coercion of the head-by-head real model: the scores are real,
  their maximum is a real number, and the softmax does not depend on the real number subtracted, so each weight is the
  real softmax weight; sums and products of reals stay real.
-/
import proofs.«167654_g45337674776981_feedfinal_438_9_alg».proof.Proof.AlgebraShared
import proofs.«167654_g45337674776981_feedfinal_438_9_alg».proof.Proof.AlgebraModel

noncomputable section

open scoped BigOperators

namespace Cert.Mhm

open Idealize.ShloMosaic

section Ref
variable {k : Fin 262144 → Fin 128 → EReal} {mems : Fin 8 → Fin 64 → Fin 128 → EReal}
  {Wk : Fin 8 → Fin 128 → Fin 128 → EReal} {bk : Fin 8 → Fin 128 → EReal}
  {Wv : Fin 8 → Fin 128 → Fin 128 → EReal} {bv : Fin 8 → Fin 128 → EReal}
  {Wf : Fin 1024 → Fin 128 → EReal} {bf : Fin 128 → EReal}
  {kr : Fin 262144 → Fin 128 → ℝ} {memsr : Fin 8 → Fin 64 → Fin 128 → ℝ}
  {Wkr : Fin 8 → Fin 128 → Fin 128 → ℝ} {bkr : Fin 8 → Fin 128 → ℝ}
  {Wvr : Fin 8 → Fin 128 → Fin 128 → ℝ} {bvr : Fin 8 → Fin 128 → ℝ}
  {Wfr : Fin 1024 → Fin 128 → ℝ} {bfr : Fin 128 → ℝ}

/-- The head-by-head score is the real score. -/
theorem rScore_coe (hk : ∀ n j, k n j = ((kr n j : ℝ) : EReal))
    (hm : ∀ h m d, mems h m d = ((memsr h m d : ℝ) : EReal))
    (hWk : ∀ h d j, Wk h d j = ((Wkr h d j : ℝ) : EReal)) (hbk : ∀ h j, bk h j = ((bkr h j : ℝ) : EReal))
    (h : Fin 8) (n : Fin 262144) (m : Fin 64) :
    rScore k mems Wk bk h n m = ((scR (memKeyR memsr Wkr bkr) (kr n) h m : ℝ) : EReal) := by
  simp only [rScore, scR, memKey_coe hm hWk hbk, hk, coe_sum, EReal.coe_mul]

/-- The head-by-head weight is the real softmax weight. -/
theorem rWeight_coe (hk : ∀ n j, k n j = ((kr n j : ℝ) : EReal))
    (hm : ∀ h m d, mems h m d = ((memsr h m d : ℝ) : EReal))
    (hWk : ∀ h d j, Wk h d j = ((Wkr h d j : ℝ) : EReal)) (hbk : ∀ h j, bk h j = ((bkr h j : ℝ) : EReal))
    (h : Fin 8) (n : Fin 262144) (m : Fin 64) :
    rWeight k mems Wk bk h n m = ((wtR (memKeyR memsr Wkr bkr) (kr n) h m : ℝ) : EReal) := by
  have hs : ∀ m, rScore k mems Wk bk h n m = ((scR (memKeyR memsr Wkr bkr) (kr n) h m : ℝ) : EReal) :=
    rScore_coe hk hm hWk hbk h n
  obtain ⟨M, hM⟩ := fold_max_coe (scR (memKeyR memsr Wkr bkr) (kr n) h) (Finset.univ_nonempty (α := Fin 64))
  have hmax : rScoreMax k mems Wk bk h n = (M : EReal) := by
    unfold rScoreMax
    simp only [hs]
    exact hM
  unfold rWeight rExp
  simp only [hs, hmax]
  exact softmax_coe (scR (memKeyR memsr Wkr bkr) (kr n) h) M m

/-- One head's output is real. -/
theorem rHeadOut_coe (hk : ∀ n j, k n j = ((kr n j : ℝ) : EReal))
    (hm : ∀ h m d, mems h m d = ((memsr h m d : ℝ) : EReal))
    (hWk : ∀ h d j, Wk h d j = ((Wkr h d j : ℝ) : EReal)) (hbk : ∀ h j, bk h j = ((bkr h j : ℝ) : EReal))
    (hWv : ∀ h d u, Wv h d u = ((Wvr h d u : ℝ) : EReal)) (hbv : ∀ h u, bv h u = ((bvr h u : ℝ) : EReal))
    (h : Fin 8) (n : Fin 262144) (u : Fin 128) :
    rHeadOut k mems Wk bk Wv bv h n u
      = ((headR (memKeyR memsr Wkr bkr) (logitR memsr Wvr bvr) (kr n) h u : ℝ) : EReal) := by
  simp only [rHeadOut, headR, rWeight_coe hk hm hWk hbk, logit_coe hm hWv hbv, coe_sum, EReal.coe_mul]

/-- With real inputs the head-by-head arrangement's output is the coercion of the head-by-head real model. -/
theorem refOut_coe (hk : ∀ n j, k n j = ((kr n j : ℝ) : EReal))
    (hm : ∀ h m d, mems h m d = ((memsr h m d : ℝ) : EReal))
    (hWk : ∀ h d j, Wk h d j = ((Wkr h d j : ℝ) : EReal)) (hbk : ∀ h j, bk h j = ((bkr h j : ℝ) : EReal))
    (hWv : ∀ h d u, Wv h d u = ((Wvr h d u : ℝ) : EReal)) (hbv : ∀ h u, bv h u = ((bvr h u : ℝ) : EReal))
    (hWf : ∀ f v, Wf f v = ((Wfr f v : ℝ) : EReal)) (hbf : ∀ v, bf v = ((bfr v : ℝ) : EReal))
    (n : Fin 262144) (v : Fin 128) :
    refOut k mems Wk bk Wv bv Wf bf n v
      = ((refR (memKeyR memsr Wkr bkr) (logitR memsr Wvr bvr) (kr n) Wfr bfr v : ℝ) : EReal) := by
  simp only [refOut, refR, rHeadOut_coe hk hm hWk hbk hWv hbv, hWf, hbf, EReal.coe_add, coe_sum, EReal.coe_mul]

end Ref

end Cert.Mhm

end
-- ==== Proof.Algebra.lean ====
/-
  With real inputs the fused arrangement and the head-by-head arrangement of the memory attention agree: each is the
  coercion of its real model, and the two real models are the same triple sum taken in two orders.
-/
import proofs.«167654_g45337674776981_feedfinal_438_9_alg».proof.Proof.AlgebraKernel
import proofs.«167654_g45337674776981_feedfinal_438_9_alg».proof.Proof.AlgebraRef

noncomputable section

open scoped BigOperators

namespace Cert.Mhm

open Idealize.ShloMosaic

/-- The fused arrangement equals the head-by-head arrangement on real inputs. -/
theorem kernelOut_eq_refOut
    (k : Fin 262144 → Fin 128 → EReal) (mems : Fin 8 → Fin 64 → Fin 128 → EReal)
    (Wk : Fin 8 → Fin 128 → Fin 128 → EReal) (bk : Fin 8 → Fin 128 → EReal)
    (Wv : Fin 8 → Fin 128 → Fin 128 → EReal) (bv : Fin 8 → Fin 128 → EReal)
    (Wf : Fin 1024 → Fin 128 → EReal) (bf : Fin 128 → EReal)
    (hk : ∀ n j, ∃ r : ℝ, k n j = (r : EReal)) (hmems : ∀ h m d, ∃ r : ℝ, mems h m d = (r : EReal))
    (hWk : ∀ h d j, ∃ r : ℝ, Wk h d j = (r : EReal)) (hbk : ∀ h j, ∃ r : ℝ, bk h j = (r : EReal))
    (hWv : ∀ h d u, ∃ r : ℝ, Wv h d u = (r : EReal)) (hbv : ∀ h u, ∃ r : ℝ, bv h u = (r : EReal))
    (hWf : ∀ f v, ∃ r : ℝ, Wf f v = (r : EReal)) (hbf : ∀ v, ∃ r : ℝ, bf v = (r : EReal))
    (n : Fin 262144) (v : Fin 128) :
    kernelOut k mems Wk bk Wv bv Wf bf n v = refOut k mems Wk bk Wv bv Wf bf n v := by
  choose kr hkr using hk
  choose memsr hmr using hmems
  choose Wkr hWkr using hWk
  choose bkr hbkr using hbk
  choose Wvr hWvr using hWv
  choose bvr hbvr using hbv
  choose Wfr hWfr using hWf
  choose bfr hbfr using hbf
  rw [kernelOut_coe hkr hmr hWkr hbkr hWvr hbvr hWfr hbfr n v,
    refOut_coe hkr hmr hWkr hbkr hWvr hbvr hWfr hbfr n v, kernelR_eq_refR]

end Cert.Mhm

end
-- ==== Proof.Finite.lean ====
/-
  The finiteness precondition decoded.

  The precondition takes, of each of the eight argument arrays, the conjunction over all entries of |x| < +∞, and the
  conjunction of the eight results. When it is 1, every entry of every array is a real number: an extended real whose
  absolute value max x (-x) lies strictly below ⊤ is neither ⊥ nor ⊤.
-/
import Idealize.ShloMosaic.Lib.ReduceAll
import Idealize.ShloMosaic.Lib.Pipeline.Value
import Idealize.ShloMosaic.Lib.ValueIdx
import Idealize.ShloMosaic.PureOps.Ideal.Laws
import proofs.«167654_g45337674776981_feedfinal_438_9_alg».proof.Pre_finite_inputs

noncomputable section

namespace Cert.Mhm.Fin

open Idealize.ShloMosaic Idealize.ShloMosaic.ValueIdx

/-- The scalar shape has one index. -/
instance subsingleton_idx0 : Subsingleton (⟨0, ![]⟩ : Shape).Idx := ⟨fun _ _ => funext fun d => d.elim0⟩

/-- The bit pattern of +∞ is the top element. -/
theorem ofBits_pos_inf : Ideal.ofBits .f32 0x7F800000#32 = (⊤ : EReal) := by simp [Ideal.ofBits, Ideal.ieee]

/-- An extended real whose absolute value max x (-x) compares strictly below +∞ is a real number. -/
theorem real_of_abs_lt (x : EReal)
    (h : Ideal.cmp .olt (max x (-x)) (Ideal.ofBits .f32 0x7F800000#32) = 1#1) : ∃ r : ℝ, x = (r : EReal) := by
  rw [ofBits_pos_inf] at h
  have hlt : max x (-x) < ⊤ := by
    by_contra hn
    unfold Ideal.cmp at h
    simp [hn] at h
  induction x using EReal.rec with
  | bot => simp at hlt
  | coe r => exact ⟨r, rfl⟩
  | top => simp at hlt

/-- One array's test: if the conjunction over all entries of |x| < +∞ is 1, every entry is a real number. -/
theorem all_real {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (⟨0, ![]⟩ : Shape) .f32 0x7F800000#32)))
          (constantI (⟨0, ![]⟩ : Shape) 1 1#1) hr hu ix0 = 1#1) :
    ∀ i : s.Idx, ∃ r : ℝ, x i = (r : EReal) := by
  intro i
  have hi := Host.reduce_andi_all _ _ hr hu ix0 e i
  exact real_of_abs_lt (x i) hi

section Pre
open Cert.Pre_finite_inputs

/-- The precondition makes every entry of every argument array a real number. -/
theorem real_of_pre [inst : Cert.Pre_finite_inputs.Facts]
    (a0 : FVec Ideal S262144x128 .f32) (a1 : FVec Ideal S8x64x128 .f32) (a2 : FVec Ideal S8x128x128 .f32)
    (a3 : FVec Ideal S8x128 .f32) (a4 : FVec Ideal S8x128x128 .f32) (a5 : FVec Ideal S8x128 .f32)
    (a6 : FVec Ideal S1024x128 .f32) (a7 : FVec Ideal S128 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) := by
  have e := congrFun h ix0
  simp only [Cert.Pre_finite_inputs.fn, Cert.Pre_finite_inputs.fn_part1, Cert.Pre_finite_inputs.fn_part2, andi,
    IntOp.andi_eq_one] at e
  obtain ⟨⟨⟨⟨⟨⟨⟨e0, e1⟩, e2⟩, e3⟩, e4⟩, e5⟩, e6⟩, e7⟩ := e
  exact ⟨all_real a0 _ _ _ e0, all_real a1 _ _ _ e1, all_real a2 _ _ _ e2, all_real a3 _ _ _ e3,
    all_real a4 _ _ _ e4, all_real a5 _ _ _ e5, all_real a6 _ _ _ e6, all_real a7 _ _ _ e7⟩

end Pre

end Cert.Mhm.Fin

end
-- ==== Proof.lean ====
/-
  Multi-head softmax attention over a learned memory bank: the fused two-launch kernel against the head-by-head
  reference, as extended reals.

  Both programs compute, per head h, the memory keys (a row softmax of mems_h · Wk_h + bk_h) and the memory values
  (mems_h · Wv_h + bv_h).  The reference then takes, per head, the softmax over the 64 memory slots of the scores
  k · key_h (with the row maximum subtracted), the weighted sum of the head's values, concatenates the eight heads'
  128 lanes and multiplies by Wf, adding bf.  The kernel scores all 512 (head, slot) columns at once, exponentiates
  WITHOUT subtracting a maximum, divides by the sum of the exponentials of the column's own head (a product with a 0/1
  mask), and contracts the 512 weights, in two halves, with the precomputed table  value_h(m, ·) · Wf[128 h …, ·].

  With every input entry a real number (the precondition) every intermediate is a real, a softmax does not change when
  a constant is subtracted from its scores, the masked sum is the head's own sum, and the two orders of the finite
  sums over (head, slot, lane) agree: the two results are equal entry by entry (`Cert.Mhm.kernelOut_eq_refOut`).
  What the kernel's result array holds is read off its run segment by segment (`Cert.Mhm.Kernel.result_eq`), what the
  reference computes off its run one operation at a time (`Cert.Mhm.Ref.val_eq_refOut`).  The idealization rewrote
  nothing, so the kernel's idealized program is its own text read over the extended reals.
-/
import proofs.«167654_g45337674776981_feedfinal_438_9_alg».proof.Defs
import proofs.«167654_g45337674776981_feedfinal_438_9_alg».proof.Proof.Gen.Kernel
import proofs.«167654_g45337674776981_feedfinal_438_9_alg».proof.Proof.Gen.Kernel.Skeleton
import proofs.«167654_g45337674776981_feedfinal_438_9_alg».proof.Proof.Gen.Kernel.Launch
import proofs.«167654_g45337674776981_feedfinal_438_9_alg».proof.Proof.Gen.Kernel.Points
import proofs.«167654_g45337674776981_feedfinal_438_9_alg».proof.Proof.Gen.Kernel.Frame
import proofs.«167654_g45337674776981_feedfinal_438_9_alg».proof.Proof.Gen.KernelIdeal
import proofs.«167654_g45337674776981_feedfinal_438_9_alg».proof.Proof.Gen.KernelIdeal.Skeleton
import proofs.«167654_g45337674776981_feedfinal_438_9_alg».proof.Proof.Gen.KernelIdeal.Launch
import proofs.«167654_g45337674776981_feedfinal_438_9_alg».proof.Proof.Gen.KernelIdeal.Points
import proofs.«167654_g45337674776981_feedfinal_438_9_alg».proof.Proof.Gen.KernelIdeal.Frame
import proofs.«167654_g45337674776981_feedfinal_438_9_alg».proof.Proof.Gen.ReferenceIdeal
import proofs.«167654_g45337674776981_feedfinal_438_9_alg».proof.Proof.Gen.Pre_finite_inputs
import proofs.«167654_g45337674776981_feedfinal_438_9_alg».proof.Proof.Gen.ReferenceIdeal.Run
import proofs.«167654_g45337674776981_feedfinal_438_9_alg».proof.Proof.Gen.ReferenceIdeal.Read
import proofs.«167654_g45337674776981_feedfinal_438_9_alg».proof.Proof.KernelValue
import proofs.«167654_g45337674776981_feedfinal_438_9_alg».proof.Proof.RefValueB
import proofs.«167654_g45337674776981_feedfinal_438_9_alg».proof.Proof.Algebra
import proofs.«167654_g45337674776981_feedfinal_438_9_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments as launched. -/
theorem frame_kernel : Cert.frame_Kernel := fun m ρ _ => Cert.Kernel.Gen.frame m ρ

/-- So does its idealized reading. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the eight arguments, all of them finite, both programs end with the same result
    array: the fused output of the arguments. -/
theorem algebraic : Cert.algebraic_KernelIdeal_ReferenceIdeal := by
  intro m ρ m' ρ' hpre hagree
  refine ⟨fun c => Cert.Mhm.fused (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Mhm.Kernel.result_eq m ρ c), (h c).2⟩) (Cert.Mhm.Run.run_value m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v38_eq]
    obtain ⟨e0, e1, e2, e3, e4, e5, e6, e7⟩ := hagree c
    rw [e0, e1, e2, e3, e4, e5, e6, e7]
    obtain ⟨f0, f1, f2, f3, f4, f5, f6, f7⟩ := Cert.Mhm.Fin.real_of_pre _ _ _ _ _ _ _ _ (hpre c)
    funext i
    obtain ⟨n, v, rfl⟩ : ∃ (n : Fin 262144) (v : Fin 128), i = ix2 n v := ⟨i 0, i 1, eq_ix2 i⟩
    refine (Cert.Mhm.Ref.val_eq_refOut _ _ _ _ _ _ _ _ n v).trans ?_
    exact (Cert.Mhm.kernelOut_eq_refOut _ _ _ _ _ _ _ _ (fun n j => f0 _) (fun h p d => f1 _) (fun h d j => f2 _)
      (fun h j => f3 _) (fun h d u => f4 _) (fun h u => f5 _) (fun f v => f6 _) (fun v => f7 _) n v).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
